-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1536x2048 : Shape := ⟨3, ![8, 1536, 2048]⟩
abbrev S1024x1536x1 : Shape := ⟨3, ![1024, 1536, 1]⟩
abbrev S1024 : Shape := ⟨1, ![1024]⟩
abbrev S_ : Shape := ⟨0, ![]⟩

class Facts : Prop where
  bcast_S_S8x1536x2048 : S_.BroadcastsInDim S8x1536x2048 (![] : Fin 0 → Fin S8x1536x2048.rank)
  reducesTo_S8x1536x2048_S_d0_1_2 : S8x1536x2048.ReducesTo [0, 1, 2] S_
  h_S_ : 0 < S_.numel
  bcast_S_S1024x1536x1 : S_.BroadcastsInDim S1024x1536x1 (![] : Fin 0 → Fin S1024x1536x1.rank)
  reducesTo_S1024x1536x1_S_d0_1_2 : S1024x1536x1.ReducesTo [0, 1, 2] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8x1536x2048 .f32) (main_arg1 : FVec F S1024x1536x1 .f32) (main_arg2 : FVec F S1024 .f32) : IVec S_ 1 :=
  let main_v0 : FVec F S8x1536x2048 .f32 := Host.absf main_arg0
  let main_cst : FVec F S_ .f32 := constant S_ .f32 0x7F800000#32
  let main_v1 : FVec F S8x1536x2048 .f32 := broadcastInDim S8x1536x2048 ![] bcast_S_S8x1536x2048 main_cst
  let main_v2 : IVec S8x1536x2048 1 := cmpf .olt main_v0 main_v1
  let main_c : IVec S_ 1 := constantI S_ 1 1#1
  let main_v3 : IVec S_ 1 := (fun x v => Host.reduce IntOp.andi x v reducesTo_S8x1536x2048_S_d0_1_2 h_S_) main_v2 main_c
  let main_v4 : FVec F S1024x1536x1 .f32 := Host.absf main_arg1
  let main_cst_0 : FVec F S_ .f32 := constant S_ .f32 0x7F800000#32
  let main_v5 : FVec F S1024x1536x1 .f32 := broadcastInDim S1024x1536x1 ![] bcast_S_S1024x1536x1 main_cst_0
  let main_v6 : IVec S1024x1536x1 1 := cmpf .olt main_v4 main_v5
  let main_c_1 : IVec S_ 1 := constantI S_ 1 1#1
  let main_v7 : IVec S_ 1 := (fun x v => Host.reduce IntOp.andi x v reducesTo_S1024x1536x1_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8x1536x2048 : Shape := ⟨3, ![8, 1536, 2048]⟩
abbrev S1024x1536x1 : Shape := ⟨3, ![1024, 1536, 1]⟩
abbrev S1024 : Shape := ⟨1, ![1024]⟩
abbrev S1024x1536 : Shape := ⟨2, ![1024, 1536]⟩
abbrev S1024x1 : Shape := ⟨2, ![1024, 1]⟩
abbrev S8x1024x2048 : Shape := ⟨3, ![8, 1024, 2048]⟩
abbrev S1x1536x2048 : Shape := ⟨3, ![1, 1536, 2048]⟩
abbrev S1x1024x2048 : Shape := ⟨3, ![1, 1024, 2048]⟩
abbrev S1536x2048 : Shape := ⟨2, ![1536, 2048]⟩
abbrev S1024x2048 : Shape := ⟨2, ![1024, 2048]⟩

abbrev nBuf : Space → Nat
  | .hbm => 7
  | .vmem => 6
  | .smem => 0
  | _ => 0

abbrev bufTy : (tb : Table) → Fin (tcTables nBuf tb) → BufTy
  | .hbm, ⟨0, _⟩ => ⟨S8x1536x2048, .f32⟩
  | .hbm, ⟨1, _⟩ => ⟨S1024x1536x1, .f32⟩
  | .hbm, ⟨2, _⟩ => ⟨S1024, .f32⟩
  | .hbm, ⟨3, _⟩ => ⟨S1024x1536, .f32⟩
  | .hbm, ⟨4, _⟩ => ⟨S1024x1536, .bf16⟩
  | .hbm, ⟨5, _⟩ => ⟨S1024x1, .f32⟩
  | .hbm, ⟨6, _⟩ => ⟨S8x1024x2048, .f32⟩
  | .local _ .vmem, ⟨0, _⟩ => ⟨S1x1536x2048, .f32⟩
  | .local _ .vmem, ⟨1, _⟩ => ⟨S1x1536x2048, .f32⟩
  | .local _ .vmem, ⟨2, _⟩ => ⟨S1024x1536, .bf16⟩
  | .local _ .vmem, ⟨3, _⟩ => ⟨S1024x1, .f32⟩
  | .local _ .vmem, ⟨4, _⟩ => ⟨S1x1024x2048, .f32⟩
  | .local _ .vmem, ⟨5, _⟩ => ⟨S1x1024x2048, .f32⟩
  | _, _ => ⟨S8x1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S1x1536x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x1536x1_S1024x1536 : S1024x1536x1.ShapeCasts S1024x1536
  bitsLt_bf16_f32 : FTy.bits .bf16 < FTy.bits .f32
  shapeCasts_S1024_S1024x1 : S1024.ShapeCasts S1024x1
  inb_S1x1536x2048_S1x1536x2048_0_0_0 : ∀ a, (![0, 0, 0] : Fin 3 → Nat) a + S1x1536x2048.size a ≤ S1x1536x2048.size a
  h_S1x1536x2048 : 0 < S1x1536x2048.numel
  shapeCasts_S1x1536x2048_S1536x2048 : S1x1536x2048.ShapeCasts S1536x2048
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  dot_S1024x1536_S1536x2048_S1024x2048_1_0_0_1_n_n_wf : DotDims.WF S1024x1536 S1536x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1536x2048.size a ≤ S8x1536x2048.size a
  hwx0_0 : ∀ i : grid0.Coords, EltTy.bits .f32 = 32 ∨ (Rect.block (s := S8x1536x2048) S1x1536x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1536.size a ≤ S1024x1536.size a
  hwx0_1 : ∀ i : grid0.Coords, EltTy.bits .bf16 = 32 ∨ (Rect.block (s := S1024x1536) S1024x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x1024x2048.size a
  hwx0_3 : ∀ i : grid0.Coords, EltTy.bits .f32 = 32 ∨ (Rect.block (s := S8x1024x2048) S1x1024x2048.size (cc0_transform_3 i) (hinb0_3 i)).WholeWords (EltTy.packing .f32)

variable [Facts₀]

def dot_S1024x1536_S1536x2048_S1024x2048_1_0_0_1_n_n : DotDims S1024x1536 S1536x2048 S1024x2048 where
  lhsContracting := [1]
  rhsContracting := [0]
  lhsNonContracting := [0]
  rhsNonContracting := [1]
  lhsBatch := []
  rhsBatch := []
  wf := dot_S1024x1536_S1536x2048_S1024x2048_1_0_0_1_n_n_wf

abbrev win0_0 : Pipeline.Window sig grid0 :=
  Pipeline.Window.ofSpec (Memref.whole main_arg0) S1x1536x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1536x2048 : Shape := ⟨3, ![8, 1536, 2048]⟩
abbrev S1024x1536x1 : Shape := ⟨3, ![1024, 1536, 1]⟩
abbrev S1024 : Shape := ⟨1, ![1024]⟩
abbrev S1024x1536 : Shape := ⟨2, ![1024, 1536]⟩
abbrev S1024x1 : Shape := ⟨2, ![1024, 1]⟩
abbrev S8x1024x2048 : Shape := ⟨3, ![8, 1024, 2048]⟩
abbrev S1x512x384 : Shape := ⟨3, ![1, 512, 384]⟩
abbrev S1024x512 : Shape := ⟨2, ![1024, 512]⟩
abbrev S1x1024x384 : Shape := ⟨3, ![1, 1024, 384]⟩
abbrev S1024x384 : Shape := ⟨2, ![1024, 384]⟩
abbrev S512x384 : Shape := ⟨2, ![512, 384]⟩

abbrev nBuf : Space → Nat
  | .hbm => 6
  | .vmem => 8
  | .smem => 0
  | _ => 0

abbrev bufTy : (tb : Table) → Fin (tcTables nBuf tb) → BufTy
  | .hbm, ⟨0, _⟩ => ⟨S8x1536x2048, .f32⟩
  | .hbm, ⟨1, _⟩ => ⟨S1024x1536x1, .f32⟩
  | .hbm, ⟨2, _⟩ => ⟨S1024, .f32⟩
  | .hbm, ⟨3, _⟩ => ⟨S1024x1536, .f32⟩
  | .hbm, ⟨4, _⟩ => ⟨S1024x1, .f32⟩
  | .hbm, ⟨5, _⟩ => ⟨S8x1024x2048, .f32⟩
  | .local _ .vmem, ⟨0, _⟩ => ⟨S1x512x384, .f32⟩
  | .local _ .vmem, ⟨1, _⟩ => ⟨S1x512x384, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1x1024x384, .f32⟩
  | .local _ .vmem, ⟨6, _⟩ => ⟨S1x1024x384, .f32⟩
  | .local _ .vmem, ⟨7, _⟩ => ⟨S1024x384, .f32⟩
  | _, _ => ⟨S8x1536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![48, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1024x1536x1_S1024x1536 : S1024x1536x1.ShapeCasts S1024x1536
  shapeCasts_S1024_S1024x1 : S1024.ShapeCasts S1024x1
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512x384_S1x512x384_0_0_0 : ∀ a, (![0, 0, 0] : Fin 3 → Nat) a + S1x512x384.size a ≤ S1x512x384.size a
  h_S1x512x384 : 0 < S1x512x384.numel
  shapeCasts_S1x512x384_S512x384 : S1x512x384.ShapeCasts S512x384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x384 : S1024x1.Broadcasts S1024x384
  inb_S1x1024x384_S1x1024x384_0_0_0 : ∀ a, (![0, 0, 0] : Fin 3 → Nat) a + S1x1024x384.size a ≤ S1x1024x384.size a
  h_S1x1024x384 : 0 < S1x1024x384.numel
  shapeCasts_S1x1024x384_S1024x384 : S1x1024x384.ShapeCasts S1024x384
  shapeCasts_S1024x384_S1x1024x384 : S1024x384.ShapeCasts S1x1024x384
  dot_S1024x512_S512x384_S1024x384_1_0_0_1_n_n_wf : DotDims.WF S1024x512 S512x384 S1024x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x512x384.size a < S8x1536x2048.size a
  hwx0_0 : ∀ i : grid0.Coords, EltTy.bits .f32 = 32 ∨ (Rect.unit (s := S8x1536x2048) (fun a => cc0_transform_0 i a * S1x512x384.size a) (fun a => (Pipeline.Clip.of (cc0_transform_0 i a) (S1x512x384.size a) (S8x1536x2048.size a)).extent (S1x512x384.size a)) fun a => Pipeline.Clip.inb (Pipeline.Clip.ok_of (hstart0_0 i a))).WholeWords (EltTy.packing .f32)
  hwxs0_0 : ∀ i : grid0.Coords, EltTy.bits .f32 = 32 ∨ (Rect.unit (s := S1x512x384) (fun _ => 0) (fun a => (Pipeline.Clip.of (cc0_transform_0 i a) (S1x512x384.size a) (S8x1536x2048.size a)).extent (S1x512x384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x1536.size a
  hwx0_1 : ∀ i : grid0.Coords, EltTy.bits .f32 = 32 ∨ (Rect.block (s := S1024x1536) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1024x384.size a < S8x1024x2048.size a
  hwx0_3 : ∀ i : grid0.Coords, EltTy.bits .f32 = 32 ∨ (Rect.unit (s := S8x1024x2048) (fun a => cc0_transform_3 i a * S1x1024x384.size a) (fun a => (Pipeline.Clip.of (cc0_transform_3 i a) (S1x1024x384.size a) (S8x1024x2048.size a)).extent (S1x1024x384.size a)) fun a => Pipeline.Clip.inb (Pipeline.Clip.ok_of (hstart0_3 i a))).WholeWords (EltTy.packing .f32)
  hwxs0_3 : ∀ i : grid0.Coords, EltTy.bits .f32 = 32 ∨ (Rect.unit (s := S1x1024x384) (fun _ => 0) (fun a => (Pipeline.Clip.of (cc0_transform_3 i a) (S1x1024x384.size a) (S8x1024x2048.size a)).extent (S1x1024x384.size a)) fun a => (Nat.zero_add _).trans_le (Pipeline.Clip.extent_le (Pipeline.Clip.ok_of (hstart0_3 i a)))).WholeWords (EltTy.packing .f32)

variable [Facts₀]

def dot_S1024x512_S512x384_S1024x384_1_0_0_1_n_n : DotDims S1024x512 S512x384 S1024x384 where
  lhsContracting := [1]
  rhsContracting := [0]
  lhsNonContracting := [0]
  rhsNonContracting := [1]
  lhsBatch := []
  rhsBatch := []
  wf := dot_S1024x512_S512x384_S1024x384_1_0_0_1_n_n_wf

abbrev win0_0 : Pipeline.Window sig grid0 :=
  Pipeline.Window.ofSpecClip (Memref.whole main_arg0) S1x512x384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v2) S1x1024x384.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.Spec.lean ====
/-
  The function both programs compute: a pointwise (kernel size one) convolution along the channel axis,
  `y[n, o, l] = (Σ_c w[o, c, 0] · x[n, c, l]) + b[o]`, over the extended reals, with
  x : [8, 1536, 2048], w : [1024, 1536, 1], b : [1024], y : [8, 1024, 2048];
  and the one law that joins a sum over all 1536 channels to the same sum taken in three consecutive
  runs of 512 channels, each added to what the runs before it gave, starting from zero. Only
  associativity of addition on the extended reals is used, so no finiteness is needed.
-/
import Idealize.ShloMosaic.PureOps.Ideal
import Idealize.ShloMosaic.Lib.ValueIdx

noncomputable section

open scoped BigOperators

namespace Cert.PwConv

open Idealize.ShloMosaic Idealize.ShloMosaic.ValueIdx

abbrev SX : Shape := ⟨3, ![8, 1536, 2048]⟩
abbrev SW : Shape := ⟨3, ![1024, 1536, 1]⟩
abbrev SB : Shape := ⟨1, ![1024]⟩
abbrev SY : Shape := ⟨3, ![8, 1024, 2048]⟩

/-- The channel sum at batch `n`, output channel `o`, position `l`. -/
def chanSum (x : SX.Idx → EReal) (w : SW.Idx → EReal) (n : Fin 8) (o : Fin 1024) (l : Fin 2048) : EReal :=
  ∑ c : Fin 1536, w (ix3 o c (0 : Fin 1)) * x (ix3 n c l)

/-- The pointwise convolution with bias: `y[n, o, l] = (Σ_c w[o, c, 0] · x[n, c, l]) + b[o]`. -/
def conv (x : SX.Idx → EReal) (w : SW.Idx → EReal) (b : SB.Idx → EReal) : SY.Idx → EReal :=
  fun i => chanSum x w (i 0) (i 1) (i 2) + b (ix1 (i 1))

/-- The channel `512 · k + c` of the `k`-th run of 512 channels. -/
def chan (k : Fin 3) (c : Fin 512) : Fin 1536 := ⟨512 * k.val + c.val, by have := k.isLt; have := c.isLt; omega⟩

/-- A sum over the 1536 channels is the sum of its three consecutive runs of 512, taken in order. -/
theorem sum_three_runs (f : Fin 1536 → EReal) :
    ∑ c : Fin 1536, f c = ((0 + ∑ c : Fin 512, f (chan 0 c)) + ∑ c : Fin 512, f (chan 1 c)) + ∑ c : Fin 512, f (chan 2 c) := by
  rw [zero_add]
  have e : ∑ c : Fin 1536, f c = ∑ c : Fin (512 + (512 + 512)), f (Fin.cast (by norm_num) c) :=
    (Fin.sum_congr' f (by norm_num : 512 + (512 + 512) = 1536)).symm
  rw [e, Fin.sum_univ_add, Fin.sum_univ_add, add_assoc]
  refine congrArg₂ (· + ·) ?_ (congrArg₂ (· + ·) ?_ ?_)
  all_goals refine Finset.sum_congr rfl fun c _ => congrArg f (Fin.ext ?_)
  all_goals simp only [chan, Fin.coe_cast, Fin.coe_castAdd, Fin.coe_natAdd]
  all_goals omega

end Cert.PwConv

end
-- ==== Proof.KernelPayload.lean ====
/-
  The value the kernel body stores, read entry by entry at the ideal values. The body takes the block
  x : [1, 1536, 2048] of the input, the whole weight W : [1024, 1536] and the bias column b : [1024, 1],
  multiplies W by the block viewed as a [1536, 2048] matrix into a zero accumulator, adds the bias column
  broadcast along the positions, and stores the result viewed as [1, 1024, 2048]. Changes of float format
  are the identity at the ideal values, so entry (0, o, l) of the stored value is
  (Σ_c W[o, c] · x[0, c, l]) + b[o, 0].
-/
import proofs.«168987_g2000604510244575_pallasbulk_476_16_alg».proof.Proof.Gen.KernelIdeal.Skeleton
import proofs.«168987_g2000604510244575_pallasbulk_476_16_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.ConvValue

open Cert.KernelIdeal Cert.KernelIdeal.Gen Idealize.ShloMosaic Idealize.ShloMosaic.ValueIdx

/-- A column [a, 1] broadcast to [a, b] reads, at (p, q), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's matrix product into the zero accumulator, read at (o, l): the sum over the 1536 channels of
    the products of the left operand's row o and the right operand's column l. -/
theorem matmul_zero_apply (A : FVec Ideal S1024x1536 .bf16) (B : FVec Ideal S1536x2048 .bf16) (o : Fin 1024) (l : Fin 2048) :
    matmul dot_S1024x1536_S1536x2048_S1024x2048_1_0_0_1_n_n none A B (constant (F := Ideal) S1024x2048 .f32 0x00000000#32) (ix2 o l)
      = ∑ c : Fin 1536, A (ix2 o c) * B (ix2 c l) := by
  show FloatOps.matmul dot_S1024x1536_S1536x2048_S1024x2048_1_0_0_1_n_n none A B _ (ix2 o l) = _
  rw [Ideal.matmul_constant_zero_apply,
    ← Equiv.sum_comp (contrEquiv1 dot_S1024x1536_S1536x2048_S1024x2048_1_0_0_1_n_n 1536 rfl rfl).symm]
  refine Finset.sum_congr rfl fun c _ => ?_
  have c2 := contrEquiv1_symm_val dot_S1024x1536_S1536x2048_S1024x2048_1_0_0_1_n_n 1536 rfl rfl c
  have l2 : dot_S1024x1536_S1536x2048_S1024x2048_1_0_0_1_n_n.lhsIdx (ix2 o l)
      ((contrEquiv1 dot_S1024x1536_S1536x2048_S1024x2048_1_0_0_1_n_n 1536 rfl rfl).symm c) = ix2 o c := by
    funext ax; apply Fin.ext
    match ax with
    | ⟨0, _⟩ => simp [DotDims.lhsIdx, dot_S1024x1536_S1536x2048_S1024x2048_1_0_0_1_n_n]; rfl
    | ⟨1, _⟩ => simp [DotDims.lhsIdx, dot_S1024x1536_S1536x2048_S1024x2048_1_0_0_1_n_n]; exact c2
  have r2 : dot_S1024x1536_S1536x2048_S1024x2048_1_0_0_1_n_n.rhsIdx (ix2 o l)
      ((contrEquiv1 dot_S1024x1536_S1536x2048_S1024x2048_1_0_0_1_n_n 1536 rfl rfl).symm c) = ix2 c l := by
    funext ax; apply Fin.ext
    match ax with
    | ⟨0, _⟩ => simp [DotDims.rhsIdx, dot_S1024x1536_S1536x2048_S1024x2048_1_0_0_1_n_n]; exact c2
    | ⟨1, _⟩ => simp [DotDims.rhsIdx, dot_S1024x1536_S1536x2048_S1024x2048_1_0_0_1_n_n]; rfl
  rw [l2, r2]

/-- THE STORED VALUE AT AN ENTRY: entry (0, o, l) of what the body stores is the channel sum of the weight's
    row o against the block's column l, plus the bias column's entry o. -/
theorem payload_apply (x0 : Vec Ideal S1x1536x2048 .f32) (x1 : Vec Ideal S1024x1536 .bf16) (x2 : Vec Ideal S1024x1 .f32)
    (u : Fin 1) (o : Fin 1024) (l : Fin 2048) :
    k0_pay1 x0 x1 x2 (ix3 u o l)
      = (∑ c : Fin 1536, x1 (ix2 o c) * x0 (ix3 (0 : Fin 1) c l)) + x2 (ix2 o (0 : Fin 1)) := by
  unfold k0_pay1
  rw [shapeCast_ab_1ab_apply, addf_apply, matmul_zero_apply, broadcastTo_a1_ab_apply, shapeCast_self, shapeCast_self]
  refine congrArg (· + x2 (ix2 o (0 : Fin 1))) (Finset.sum_congr rfl fun c _ => ?_)
  rw [truncf_apply, shapeCast_1ab_ab_apply]

/-- ONE POINT'S STORED VALUE IS THE CONVOLUTION ON ITS BATCH ELEMENT. When the block is batch element n of an
    input X, the weight operand is W with its trailing unit axis dropped and the bias column is B, the stored
    value at (0, o, l) is the pointwise convolution of X, W, B at (n, o, l). -/
theorem payload_eq_conv (x0 : Vec Ideal S1x1536x2048 .f32) (x1 : Vec Ideal S1024x1536 .bf16) (x2 : Vec Ideal S1024x1 .f32)
    (X : Cert.PwConv.SX.Idx → EReal) (W : Cert.PwConv.SW.Idx → EReal) (B : Cert.PwConv.SB.Idx → EReal) (n : Fin 8)
    (h0 : ∀ (k : Fin 1536) (l : Fin 2048), x0 (ix3 (0 : Fin 1) k l) = X (ix3 n k l))
    (h1 : ∀ (o : Fin 1024) (k : Fin 1536), x1 (ix2 o k) = W (ix3 o k (0 : Fin 1)))
    (h2 : ∀ o : Fin 1024, x2 (ix2 o (0 : Fin 1)) = B (ix1 o))
    (u : Fin 1) (o : Fin 1024) (l : Fin 2048) :
    k0_pay1 x0 x1 x2 (ix3 u o l) = Cert.PwConv.conv X W B (ix3 n o l) := by
  rw [payload_apply]
  show _ = Cert.PwConv.chanSum X W n o l + B (ix1 o)
  unfold Cert.PwConv.chanSum
  rw [h2]
  refine congrArg (· + B (ix1 o)) (Finset.sum_congr rfl fun k _ => ?_)
  rw [h0, h1]

/-- The same with the two indices given by their coordinates: the block index j and an array index i on batch
    element n with j's channel and position. -/
theorem payload_eq_conv_at (x0 : Vec Ideal S1x1536x2048 .f32) (x1 : Vec Ideal S1024x1536 .bf16) (x2 : Vec Ideal S1024x1 .f32)
    (X : Cert.PwConv.SX.Idx → EReal) (W : Cert.PwConv.SW.Idx → EReal) (B : Cert.PwConv.SB.Idx → EReal) (n : Fin 8)
    (h0 : ∀ (k : Fin 1536) (l : Fin 2048), x0 (ix3 (0 : Fin 1) k l) = X (ix3 n k l))
    (h1 : ∀ (o : Fin 1024) (k : Fin 1536), x1 (ix2 o k) = W (ix3 o k (0 : Fin 1)))
    (h2 : ∀ o : Fin 1024, x2 (ix2 o (0 : Fin 1)) = B (ix1 o))
    (j : S1x1024x2048.Idx) (i : Cert.PwConv.SY.Idx)
    (hi0 : (i 0).val = n.val) (hi1 : (i 1).val = (j 1).val) (hi2 : (i 2).val = (j 2).val) :
    k0_pay1 x0 x1 x2 j = Cert.PwConv.conv X W B i := by
  obtain ⟨u, o, l, rfl⟩ : ∃ (u : Fin 1) (o : Fin 1024) (l : Fin 2048), j = ix3 u o l := ⟨j 0, j 1, j 2, eq_ix3 j⟩
  obtain rfl : i = ix3 n o l := by
    funext a
    apply Fin.ext
    match a with
    | ⟨0, _⟩ => exact hi0
    | ⟨1, _⟩ => exact hi1
    | ⟨2, _⟩ => exact hi2
  exact payload_eq_conv x0 x1 x2 X W B n h0 h1 h2 u o l

end Cert.KernelIdeal.ConvValue

end
-- ==== Proof.KernelBlocks.lean ====
/-
  The arrays the kernel's windows read, entry by entry, in terms of the program's three arguments.
  The input's window moves with the grid: at point t its block is batch element t of x : [8, 1536, 2048].
  The weight's and the bias's windows stay put and read arrays the host made before the call: the weight
  w : [1024, 1536, 1] viewed as [1024, 1536] (a change of float format after that is the identity at the ideal
  values), and the bias b : [1024] viewed as the column [1024, 1]. So entry (o, c) of the weight window's
  block is w[o, c, 0] and entry (o, 0) of the bias window's block is b[o], at every grid point.
-/
import proofs.«168987_g2000604510244575_pallasbulk_476_16_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.ConvValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arrays the host made before the call -/

/-- The weight window's array at (o, c) is the weight argument at (o, c, 0): a reshape that drops the
    trailing unit axis, then a change of float format, which is the identity here. -/
theorem V_weight_apply (c : Dev nD) (o : Fin 1024) (k : Fin 1536) :
    (V m c main_v1 : S1024x1536.Idx → EReal) (ix2 o k)
      = (m ((c : Thread nD τ).loc main_arg1) : S1024x1536x1.Idx → EReal) (ix3 o k (0 : Fin 1)) := by
  have e : (V m c main_v1 : S1024x1536.Idx → EReal)
      = (truncf .bf16 (shapeCast S1024x1536 (m ((c : Thread nD τ).loc main_arg1) : FVec Ideal S1024x1536x1 .f32)
          Facts₀.shapeCasts_S1024x1536x1_S1024x1536 : FVec Ideal S1024x1536 .f32) Facts₀.bitsLt_bf16_f32 : FVec Ideal S1024x1536 .bf16) := by
    dsimp only [Gen.V, Gen.hostOps0]; after_results; rfl
  rw [e, truncf_apply]
  refine shapeCast_apply _ _ _ _ ?_
  show (S1024x1536x1.rowMajor (ix3 o k (0 : Fin 1))).val = (S1024x1536.rowMajor (ix2 o k)).val
  rw [Shape.rowMajor_val_three, Shape.rowMajor_val_two]
  show (o.val * 1536 + k.val) * 1 + 0 = o.val * 1536 + k.val
  omega

/-- The bias window's array at (o, 0) is the bias argument at o: a reshape that adds a trailing unit axis. -/
theorem V_bias_apply (c : Dev nD) (o : Fin 1024) (z : Fin 1) :
    (V m c main_v2 : S1024x1.Idx → EReal) (ix2 o z)
      = (m ((c : Thread nD τ).loc main_arg2) : S1024.Idx → EReal) (ix1 o) := by
  have e : (V m c main_v2 : S1024x1.Idx → EReal)
      = shapeCast S1024x1 (m ((c : Thread nD τ).loc main_arg2) : S1024.Idx → EReal) Facts₀.shapeCasts_S1024_S1024x1 := by
    dsimp only [Gen.V, Gen.hostOps0]; after_results; rfl
  rw [e]
  refine shapeCast_apply _ _ _ _ ?_
  show (S1024.rowMajor (ix1 o)).val = (S1024x1.rowMajor (ix2 o z)).val
  rw [Shape.rowMajor_val_one, Shape.rowMajor_val_two]
  show o.val = o.val * 1 + z.val
  have := z.isLt
  omega

/-! ## The windows' block indices over the grid -/

/-- The printed index maps, decided over the 8 grid points: the input's and the output's block index is
    (t, 0, 0); the weight's and the bias's is (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## Each input window's block at a point, entry by entry -/

/-- The input window's block at point t is batch element t of the input argument. -/
theorem iblk_input_apply (c : Dev nD) (t : Fin cfg0.N) (y : S1x1536x2048.Idx) (i : S8x1536x2048.Idx)
    (h0 : (i 0).val = t.val) (h1 : (i 1).val = (y 1).val) (h2 : (i 2).val = (y 2).val) :
    (iblk m c 0 t : Vec Ideal S1x1536x2048 .f32) y
      = (m ((c : Thread nD τ).loc main_arg0) : S8x1536x2048.Idx → EReal) i := by
  obtain ⟨e0, e1, e2, -⟩ := idx_facts t
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 1536 + 1 * (y 1).val = (i 1).val; omega
  | ⟨2, _⟩ => show win0_0.index t (2 : Fin 3) * 2048 + 1 * (y 2).val = (i 2).val; omega

/-- The weight window's block at any point, at (o, k), is the weight argument at (o, k, 0). -/
theorem iblk_weight_apply (c : Dev nD) (t : Fin cfg0.N) (o : Fin 1024) (k : Fin 1536) :
    (iblk m c 1 t : Vec Ideal S1024x1536 .bf16) (ix2 o k)
      = (m ((c : Thread nD τ).loc main_arg1) : S1024x1536x1.Idx → EReal) (ix3 o k (0 : Fin 1)) := by
  obtain ⟨-, -, -, e0, e1, -⟩ := idx_facts t
  unfold iblk
  rw [View.read_apply]
  show (V m c main_v1 : S1024x1536.Idx → EReal) (((cfg0.win 1).blk t).view.emb (ix2 o k)) = _
  have he : ((cfg0.win 1).blk t).view.emb (ix2 o k) = ix2 o k := by
    funext a
    apply Fin.ext
    match a with
    | ⟨0, _⟩ => show win0_1.index t (0 : Fin 2) * 1024 + 1 * o.val = o.val; omega
    | ⟨1, _⟩ => show win0_1.index t (1 : Fin 2) * 1536 + 1 * k.val = k.val; omega
  rw [he]
  exact V_weight_apply m c o k

/-- The bias window's block at any point, at (o, 0), is the bias argument at o. -/
theorem iblk_bias_apply (c : Dev nD) (t : Fin cfg0.N) (o : Fin 1024) (z : Fin 1) :
    (iblk m c 2 t : Vec Ideal S1024x1 .f32) (ix2 o z)
      = (m ((c : Thread nD τ).loc main_arg2) : S1024.Idx → EReal) (ix1 o) := by
  obtain ⟨-, -, -, -, -, e0, e1, -⟩ := idx_facts t
  unfold iblk
  rw [View.read_apply]
  show (V m c main_v2 : S1024x1.Idx → EReal) (((cfg0.win 2).blk t).view.emb (ix2 o z)) = _
  have he : ((cfg0.win 2).blk t).view.emb (ix2 o z) = ix2 o z := by
    funext a
    apply Fin.ext
    match a with
    | ⟨0, _⟩ => show win0_2.index t (0 : Fin 2) * 1024 + 1 * o.val = o.val; omega
    | ⟨1, _⟩ => show win0_2.index t (1 : Fin 2) * 1 + 1 * z.val = z.val; omega
  rw [he]
  exact V_bias_apply m c o z

end Cert.KernelIdeal.ConvValue

end
-- ==== Proof.KernelValue.lean ====
/-
  The kernel's whole output array as one function of the three arguments. The grid has one point per batch
  element; point t reads batch element t of the input, the whole weight and the whole bias, and writes back
  block t of the output, [1, 1024, 2048] at offset (t, 0, 0). Entry (0, o, l) of that block is
  (Σ_c w[o, c, 0] · x[t, c, l]) + b[o], which is the pointwise convolution at (t, o, l); the eight blocks tile
  the output, so after the run the output array is the pointwise convolution of the arguments everywhere,
  and the arguments are as they were.
-/
import proofs.«168987_g2000604510244575_pallasbulk_476_16_alg».proof.Proof.Gen.KernelIdeal.Value
import proofs.«168987_g2000604510244575_pallasbulk_476_16_alg».proof.Proof.Spec
import proofs.«168987_g2000604510244575_pallasbulk_476_16_alg».proof.Proof.KernelPayload
import proofs.«168987_g2000604510244575_pallasbulk_476_16_alg».proof.Proof.KernelBlocks
import Idealize.ShloMosaic.Lib.Pipeline.Value

noncomputable section

namespace Cert.KernelIdeal.ConvValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The output array after the run: the pointwise convolution of the three arguments as launched. -/
abbrev result (c : Dev nD) : S8x1024x2048.Idx → EReal :=
  Cert.PwConv.conv (m ((c : Thread nD τ).loc main_arg0)) (m ((c : Thread nD τ).loc main_arg1)) (m ((c : Thread nD τ).loc main_arg2))

/-- WHAT POINT t WRITES BACK is block t of the convolution: the stored value at (0, o, l) is the convolution
    at (t, o, l), the array index the output's block at t puts (0, o, l) on. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zeros3]
  simp only [View.ld_unit_zero (S := S1x1536x2048) zeros3, View.ld_unit_zero (S := S1024x1536) zeros2,
    View.ld_unit_zero (S := S1024x1) zeros2]
  obtain ⟨-, -, -, -, -, -, -, e0, e1, e2⟩ := idx_facts t
  have hN : cfg0.N = 8 := N_0
  funext j
  show k0_pay1 (iblk m c 0 t) (iblk m c 1 t) (iblk m c 2 t) ((cfg0.win 3).xinj (grid0.coords t) j)
    = result m c (((cfg0.win 3).blk t).view.emb j)
  refine payload_eq_conv_at (iblk m c 0 t) (iblk m c 1 t) (iblk m c 2 t)
    (m ((c : Thread nD τ).loc main_arg0)) (m ((c : Thread nD τ).loc main_arg1)) (m ((c : Thread nD τ).loc main_arg2))
    ⟨t.val, hN ▸ t.isLt⟩ (fun k l => ?_) (fun o k => ?_) (fun o => ?_)
    ((cfg0.win 3).xinj (grid0.coords t) j) (((cfg0.win 3).blk t).view.emb j) ?_ ?_ ?_
  · exact iblk_input_apply m c t (ix3 (0 : Fin 1) k l) (ix3 ⟨t.val, hN ▸ t.isLt⟩ k l) rfl rfl rfl
  · exact iblk_weight_apply m c t o k
  · exact iblk_bias_apply m c t o (0 : Fin 1)
  · show win0_3.index t (0 : Fin 3) * 1 + 1 * (j 0).val = t.val
    have hj : (j 0).val < 1 := (j 0).isLt
    omega
  · show win0_3.index t (1 : Fin 3) * 1024 + 1 * (j 1).val = (j 1).val
    omega
  · show win0_3.index t (2 : Fin 3) * 2048 + 1 * (j 2).val = (j 2).val
    omega

/-- An index of the output array is in point t's block iff each coordinate is in the block's range on its axis. -/
theorem mem_blk (t : Fin cfg0.N) (i : S8x1024x2048.Idx) :
    i ∈ ((cfg0.win 3).blk t).view.set ↔ ∀ a : Fin 3, win0_3.index t a * S1x1024x2048.size a ≤ (i a).val
      ∧ (i a).val < win0_3.index t a * S1x1024x2048.size a + S1x1024x2048.size a := by
  show i ∈ ((View.whole main_v3).slice (win0_3.rect t)).set ↔ _
  rw [View.set_slice_whole, Rect.mem_set_unit]
  exact Iff.rfl

/-- THE BLOCKS TILE THE OUTPUT: the index (n, o, l) is in the block of the point n. -/
theorem cover (i : S8x1024x2048.Idx) :
    ∃ t : Fin cfg0.N, (cfg0.win 3).flush t = true ∧ i ∈ ((cfg0.win 3).blk t).view.set := by
  have hN : cfg0.N = 8 := N_0
  have hi0 : (i 0).val < 8 := (i 0).isLt
  have hi1 : (i 1).val < 1024 := (i 1).isLt
  have hi2 : (i 2).val < 2048 := (i 2).isLt
  obtain ⟨t, ht⟩ : ∃ t : Fin cfg0.N, t.val = (i 0).val := ⟨⟨(i 0).val, hN.symm ▸ hi0⟩, rfl⟩
  obtain ⟨-, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 2048 ≤ (i 2).val ∧ (i 2).val < win0_3.index t (2 : Fin 3) * 2048 + 2048
    omega

/-- THE OUTPUT ARRAY after the run is the convolution of the arguments. -/
theorem final (c : Dev nD) : (dats m 0 c).arrAt 3 cfg0.N = result m c :=
  (dats m 0 c).arrAt_eq_of_cover 3 (result m c) (fun t _ => flushed_eq m c t) cover

/-- THE RUN, READ: every weakly fair execution of the program terminates with the output array at the
    pointwise convolution of the argument arrays and the arguments unchanged. -/
theorem run : θ_run (defs (F := Ideal)) (onTc (τ := τ) (main (F := Ideal))) ⟨m, fun _ => 0, ρ⟩ fun r => ∀ c : Dev nD,
      r.2.mem ((c : Thread nD τ).loc main_v3)
          = Cert.PwConv.conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ConvValue

end
-- ==== Proof.RefConds.lean ====
/-
  The reduction over the channel tiles, point by point: the grid is 48 (batch, position-block) pairs times 3 channel
  tiles, the tile index moving fastest. At the first tile the body zeroes its accumulator, at every tile it adds the
  tile's matrix product to it, and at the last tile it adds the bias column and stores the result block. This module
  states the two branch conditions in closed form over the grid.
-/
import proofs.«168987_g2000604510244575_pallasbulk_476_16_alg».proof.Proof.Gen.ReferenceIdeal.Frame
import proofs.«168987_g2000604510244575_pallasbulk_476_16_alg».proof.Proof.Gen.ReferenceIdeal.Skeleton
import proofs.«168987_g2000604510244575_pallasbulk_476_16_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Tiled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first condition: the channel tile is the first one. -/
abbrev isFirst (i : grid0.Coords) : Prop :=
  (Scalar.cmpi .ne (Scalar.extui (Scalar.cmpi .eq (BitVec.ofNat 32 (i 1).val) 0#32)) 0#32) = 1#1
/-- The body's second condition: the channel tile is the last one. -/
abbrev isLast (i : grid0.Coords) : Prop := k0_cond2 i = 1#1

/-- The first tile is met at the points that are 0 modulo 3. -/
theorem isFirst_iff : ∀ t : Fin cfg0.N, isFirst (grid0.coords t) ↔ t.val % 3 = 0 :=
  (by decide +kernel : ∀ t : Fin grid0.N, isFirst (grid0.coords t) ↔ t.val % 3 = 0)
/-- The last tile is met at the points that are 2 modulo 3. -/
theorem isLast_iff : ∀ t : Fin cfg0.N, isLast (grid0.coords t) ↔ t.val % 3 = 2 :=
  (by decide +kernel : ∀ t : Fin grid0.N, isLast (grid0.coords t) ↔ t.val % 3 = 2)

/-- The result window is never idle at a last tile, and is idle at every other tile, where its block is not written back either. -/
theorem out_live : ∀ t : Fin cfg0.N, isLast (grid0.coords t) → cfg0.idle 3 (grid0.coords t) = false := by decide +kernel
theorem out_idle : ∀ t : Fin cfg0.N, ¬isLast (grid0.coords t) → cfg0.idle 3 (grid0.coords t) = true := by decide +kernel
theorem out_noflush : ∀ t : Fin cfg0.N, ¬isLast (grid0.coords t) → (cfg0.win 3).flush t = false := by decide +kernel
theorem out_flush : ∀ t : Fin cfg0.N, isLast (grid0.coords t) → (cfg0.win 3).flush t = true := by decide +kernel
/-- The three input windows are never idle. -/
theorem in_live0 : ∀ t : Fin cfg0.N, cfg0.idle 0 (grid0.coords t) = false := by decide +kernel
theorem in_live1 : ∀ t : Fin cfg0.N, cfg0.idle 1 (grid0.coords t) = false := by decide +kernel
theorem in_live2 : ∀ t : Fin cfg0.N, cfg0.idle 2 (grid0.coords t) = false := by decide +kernel

end Cert.ReferenceIdeal.Tiled

end
-- ==== Proof.RefRunMid.lean ====
/-
  The body at a MIDDLE channel tile (neither the first nor the last): the accumulator, found holding `xs`, is loaded,
  the tile's matrix product of the weight block and the input block is added to it, and the sum is stored back whole.
  Nothing is stored into the result block. The pieces the accumulator ends with are found by running the body.
-/
import proofs.«168987_g2000604510244575_pallasbulk_476_16_alg».proof.Proof.RefConds

set_option maxRecDepth 16384

noncomputable section

namespace Cert.ReferenceIdeal.Tiled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S1x512x384 .f32) (harg2 : arg2.IsWhole)
    (arg3 : Memref sig .tc .vmem S1024x512 .f32) (harg3 : arg3.IsWhole)
    (arg4 : Memref sig .tc .vmem S1024x1 .f32) (harg4 : arg4.IsWhole)
    (arg5 : Memref sig .tc .vmem S1x1024x384 .f32) (harg5 : arg5.IsWhole)
    (arg6 : Memref sig .tc .vmem S1024x384 .f32) (harg6 : arg6.IsWhole)
    (hc1 : ¬isFirst i) (hc2 : ¬isLast i)
    (x0 : Vec F S1x512x384 .f32) (x1 : Vec F S1024x512 .f32) (x2 : Vec F S1024x1 .f32) (xs : Vec F S1024x384 .f32) :
    { LS : List (View.Piece (Elt F) S1024x384 .f32) //
      ∀ (xo : Vec F S1x1024x384 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc0__pointwise_conv1d_ktiled_kernel i arg2 harg2 arg3 harg3 arg4 harg4 arg5 harg5 arg6 harg6) K } := by
  refine ⟨?_, fun xo E K => ?run⟩
  case run =>
    simp only [cc0__pointwise_conv1d_ktiled_kernel_eq_skeleton]; unfold cc0__pointwise_conv1d_ktiled_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.ReferenceIdeal.Tiled

end
-- ==== Proof.RefRunFirst.lean ====
/-
  The body at a FIRST channel tile: the accumulator, found holding anything, is overwritten whole with zeros, read back,
  the tile's matrix product is added, and the sum is stored back whole. Nothing is stored into the result block.
-/
import proofs.«168987_g2000604510244575_pallasbulk_476_16_alg».proof.Proof.RefRunMid

set_option maxRecDepth 16384

noncomputable section

namespace Cert.ReferenceIdeal.Tiled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S1x512x384 .f32) (harg2 : arg2.IsWhole)
    (arg3 : Memref sig .tc .vmem S1024x512 .f32) (harg3 : arg3.IsWhole)
    (arg4 : Memref sig .tc .vmem S1024x1 .f32) (harg4 : arg4.IsWhole)
    (arg5 : Memref sig .tc .vmem S1x1024x384 .f32) (harg5 : arg5.IsWhole)
    (arg6 : Memref sig .tc .vmem S1024x384 .f32) (harg6 : arg6.IsWhole)
    (hc1 : isFirst i) (hc2 : ¬isLast i)
    (x0 : Vec F S1x512x384 .f32) (x1 : Vec F S1024x512 .f32) (x2 : Vec F S1024x1 .f32) :
    { LS : List (View.Piece (Elt F) S1024x384 .f32) //
      ∀ (xo : Vec F S1x1024x384 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xo
                ∗ (∃ f, arg6.view.loc (c : Thread nD τ) ↦[arg6.view.set]{fullShare} arg6.view.writes (Elt F) f LS)) -∗ K ⟨⟩))
          ⊢ wp frame (wpE (defs₀ (F := F)) Variants.none c none) E (cc0__pointwise_conv1d_ktiled_kernel i arg2 harg2 arg3 harg3 arg4 harg4 arg5 harg5 arg6 harg6) K } := by
  refine ⟨?_, fun xo E K => ?run⟩
  case run =>
    simp only [cc0__pointwise_conv1d_ktiled_kernel_eq_skeleton]; unfold cc0__pointwise_conv1d_ktiled_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2
    obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.ReferenceIdeal.Tiled

end
-- ==== Proof.RefRunLast.lean ====
/-
  The body at a LAST channel tile: the accumulator, found holding `xs`, gets the tile's matrix product added and is stored
  back whole; then it is read again, the bias column is broadcast along the positions and added, and the sum is stored
  whole into the result block, found holding anything.
-/
import proofs.«168987_g2000604510244575_pallasbulk_476_16_alg».proof.Proof.RefRunFirst

set_option maxRecDepth 16384

noncomputable section

namespace Cert.ReferenceIdeal.Tiled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S1x512x384 .f32) (harg2 : arg2.IsWhole)
    (arg3 : Memref sig .tc .vmem S1024x512 .f32) (harg3 : arg3.IsWhole)
    (arg4 : Memref sig .tc .vmem S1024x1 .f32) (harg4 : arg4.IsWhole)
    (arg5 : Memref sig .tc .vmem S1x1024x384 .f32) (harg5 : arg5.IsWhole)
    (arg6 : Memref sig .tc .vmem S1024x384 .f32) (harg6 : arg6.IsWhole)
    (hc1 : ¬isFirst i) (hc2 : isLast i)
    (x0 : Vec F S1x512x384 .f32) (x1 : Vec F S1024x512 .f32) (x2 : Vec F S1024x1 .f32) (xs : Vec F S1024x384 .f32) :
    Σ' (LO : List (View.Piece (Elt F) S1x1024x384 .f32)), { LS : List (View.Piece (Elt F) S1024x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc0__pointwise_conv1d_ktiled_kernel i arg2 harg2 arg3 harg3 arg4 harg4 arg5 harg5 arg6 harg6) K } := by
  refine ⟨?_, ?_, fun E K => ?run⟩
  case run =>
    simp only [cc0__pointwise_conv1d_ktiled_kernel_eq_skeleton]; unfold cc0__pointwise_conv1d_ktiled_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.ReferenceIdeal.Tiled

end
-- ==== Proof.RefPieces.lean ====
/-
  What each run leaves, as values. The pieces a run found cover the buffer they were stored into (one whole store each),
  so reading them back gives the stored payload: after a first tile the accumulator holds the tile's product added to the
  zero block; after a middle tile, added to what it held; after a last tile likewise, and the result block holds that
  accumulator plus the bias column broadcast along the positions.
-/
import proofs.«168987_g2000604510244575_pallasbulk_476_16_alg».proof.Proof.RefRunLast
import Idealize.ShloMosaic.Lib.Pipeline.Value

set_option maxRecDepth 16384

noncomputable section

namespace Cert.ReferenceIdeal.Tiled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator, as a view: what it holds is stated through it. -/
abbrev scM : Memref sig .tc .vmem S1024x384 .f32 := Memref.whole cc0_scratch0
abbrev VS : View sig .tc .vmem S1024x384 .f32 := scM.view
/-- One staging buffer of the result window, through which its contents are stated. -/
abbrev VO : View sig .tc .vmem S1x1024x384 .f32 := (Memref.whole cc0_stg3_0 : Memref sig .tc .vmem S1x1024x384 .f32).view

variable (c : Dev nD) (i : grid0.Coords) (arg2 : Memref sig .tc .vmem S1x512x384 .f32) (harg2 : arg2.IsWhole)
    (arg3 : Memref sig .tc .vmem S1024x512 .f32) (harg3 : arg3.IsWhole)
    (arg4 : Memref sig .tc .vmem S1024x1 .f32) (harg4 : arg4.IsWhole)
    (arg5 : Memref sig .tc .vmem S1x1024x384 .f32) (harg5 : arg5.IsWhole)
    (arg6 : Memref sig .tc .vmem S1024x384 .f32) (harg6 : arg6.IsWhole)
variable (x0 : Vec F S1x512x384 .f32) (x1 : Vec F S1024x512 .f32) (x2 : Vec F S1024x1 .f32) (xs : Vec F S1024x384 .f32)

/-! ## A middle tile -/

theorem cover_mid (hc1 : ¬isFirst i) (hc2 : ¬isLast i) (y : S1024x384.Idx) :
    ∃ pc ∈ (runMid c i arg2 harg2 arg3 harg3 arg4 harg4 arg5 harg5 arg6 harg6 hc1 hc2 x0 x1 x2 xs).1, y ∈ pc.1.set :=
  View.cover_of_tiledL (runMid c i arg2 harg2 arg3 harg3 arg4 harg4 arg5 harg5 arg6 harg6 hc1 hc2 x0 x1 x2 xs).1 S1024x384.size (by sl_kernel_rfl) y

def accMid (hc1 : ¬isFirst i) (hc2 : ¬isLast i) : Vec F S1024x384 .f32 :=
  VS.read (Elt F) (VS.writes (Elt F) VS.junk (runMid c i arg2 harg2 arg3 harg3 arg4 harg4 arg5 harg5 arg6 harg6 hc1 hc2 x0 x1 x2 xs).1)

theorem accMid_eq (hc1 : ¬isFirst i) (hc2 : ¬isLast i) :
    accMid c i arg2 harg2 arg3 harg3 arg4 harg4 arg5 harg5 arg6 harg6 x0 x1 x2 xs hc1 hc2 = k0_pay2 xs x1 x0 := by
  unfold accMid
  rw [View.read_writes_eq_canon _ _ _ (cover_mid c i arg2 harg2 arg3 harg3 arg4 harg4 arg5 harg5 arg6 harg6 x0 x1 x2 xs hc1 hc2)]
  unfold runMid
  dsimp only
  rw [View.canon_unit_zero hz2]
  simp only [View.readAt_eq_ld, harg2.read_unread, harg3.read_unread, harg6.read_unread,
    View.ld_unit_zero (S := S1024x384) hz2, View.ld_unit_zero (S := S1024x512) hz2, View.ld_unit_zero (S := S1x512x384) hz3]

/-! ## A first tile -/

theorem cover_first (hc1 : isFirst i) (hc2 : ¬isLast i) (y : S1024x384.Idx) :
    ∃ pc ∈ (runFirst c i arg2 harg2 arg3 harg3 arg4 harg4 arg5 harg5 arg6 harg6 hc1 hc2 x0 x1 x2).1, y ∈ pc.1.set :=
  View.cover_of_tiledL (runFirst c i arg2 harg2 arg3 harg3 arg4 harg4 arg5 harg5 arg6 harg6 hc1 hc2 x0 x1 x2).1 S1024x384.size (by sl_kernel_rfl) y

def accFirst (hc1 : isFirst i) (hc2 : ¬isLast i) : Vec F S1024x384 .f32 :=
  VS.read (Elt F) (VS.writes (Elt F) VS.junk (runFirst c i arg2 harg2 arg3 harg3 arg4 harg4 arg5 harg5 arg6 harg6 hc1 hc2 x0 x1 x2).1)

theorem accFirst_eq (hc1 : isFirst i) (hc2 : ¬isLast i) :
    accFirst c i arg2 harg2 arg3 harg3 arg4 harg4 arg5 harg5 arg6 harg6 x0 x1 x2 hc1 hc2 = k0_pay2 (k0_pay1 (F := F)) x1 x0 := by
  unfold accFirst
  rw [View.read_writes_eq_canon _ _ _ (cover_first c i arg2 harg2 arg3 harg3 arg4 harg4 arg5 harg5 arg6 harg6 x0 x1 x2 hc1 hc2)]
  unfold runFirst
  dsimp only
  sl_unfold_words
  rw [View.canon_cons_unit_zero (S := S1024x384) hz2, View.readCov_unit_zero (S := S1024x384) _ hz2]
  simp only [View.readAt_eq_ld, harg2.read_unread, harg3.read_unread,
    View.ld_unit_zero (S := S1024x384) hz2, View.ld_unit_zero (S := S1024x512) hz2, View.ld_unit_zero (S := S1x512x384) hz3]

/-! ## A last tile -/

theorem cover_last_acc (hc1 : ¬isFirst i) (hc2 : isLast i) (y : S1024x384.Idx) :
    ∃ pc ∈ (runLast c i arg2 harg2 arg3 harg3 arg4 harg4 arg5 harg5 arg6 harg6 hc1 hc2 x0 x1 x2 xs).2.1, y ∈ pc.1.set :=
  View.cover_of_tiledL (runLast c i arg2 harg2 arg3 harg3 arg4 harg4 arg5 harg5 arg6 harg6 hc1 hc2 x0 x1 x2 xs).2.1 S1024x384.size (by sl_kernel_rfl) y

theorem cover_last_out (hc1 : ¬isFirst i) (hc2 : isLast i) (y : S1x1024x384.Idx) :
    ∃ pc ∈ (runLast c i arg2 harg2 arg3 harg3 arg4 harg4 arg5 harg5 arg6 harg6 hc1 hc2 x0 x1 x2 xs).1, y ∈ pc.1.set :=
  View.cover_of_tiledL (runLast c i arg2 harg2 arg3 harg3 arg4 harg4 arg5 harg5 arg6 harg6 hc1 hc2 x0 x1 x2 xs).1 S1x1024x384.size (by sl_kernel_rfl) y

def accLast (hc1 : ¬isFirst i) (hc2 : isLast i) : Vec F S1024x384 .f32 :=
  VS.read (Elt F) (VS.writes (Elt F) VS.junk (runLast c i arg2 harg2 arg3 harg3 arg4 harg4 arg5 harg5 arg6 harg6 hc1 hc2 x0 x1 x2 xs).2.1)

def outLast (hc1 : ¬isFirst i) (hc2 : isLast i) : Vec F S1x1024x384 .f32 :=
  VO.read (Elt F) (VO.writes (Elt F) VO.junk (runLast c i arg2 harg2 arg3 harg3 arg4 harg4 arg5 harg5 arg6 harg6 hc1 hc2 x0 x1 x2 xs).1)

theorem accLast_eq (hc1 : ¬isFirst i) (hc2 : isLast i) :
    accLast c i arg2 harg2 arg3 harg3 arg4 harg4 arg5 harg5 arg6 harg6 x0 x1 x2 xs hc1 hc2 = k0_pay2 xs x1 x0 := by
  unfold accLast
  rw [View.read_writes_eq_canon _ _ _ (cover_last_acc c i arg2 harg2 arg3 harg3 arg4 harg4 arg5 harg5 arg6 harg6 x0 x1 x2 xs hc1 hc2)]
  unfold runLast
  dsimp only
  sl_unfold_words
  rw [View.canon_unit_zero hz2]
  simp only [View.readAt_eq_ld, harg2.read_unread, harg3.read_unread, harg6.read_unread,
    View.ld_unit_zero (S := S1024x384) hz2, View.ld_unit_zero (S := S1024x512) hz2, View.ld_unit_zero (S := S1x512x384) hz3]

theorem outLast_eq (hc1 : ¬isFirst i) (hc2 : isLast i) :
    outLast c i arg2 harg2 arg3 harg3 arg4 harg4 arg5 harg5 arg6 harg6 x0 x1 x2 xs hc1 hc2 = k0_pay3 (k0_pay2 xs x1 x0) x2 := by
  unfold outLast
  rw [View.read_writes_eq_canon _ _ _ (cover_last_out c i arg2 harg2 arg3 harg3 arg4 harg4 arg5 harg5 arg6 harg6 x0 x1 x2 xs hc1 hc2)]
  unfold runLast
  dsimp only
  sl_unfold_words
  rw [View.canon_unit_zero hz3]
  simp only [View.readAt_eq_ld, harg2.read_unread, harg3.read_unread, harg4.read_unread, harg6.read_unread,
    View.ld_unit_zero (S := S1024x384) hz2, View.ld_unit_zero (S := S1024x512) hz2, View.ld_unit_zero (S := S1x512x384) hz3,
    View.ld_unit_zero (S := S1024x1) hz2, View.readCov_unit_zero (S := S1024x384) _ hz2]

end Cert.ReferenceIdeal.Tiled

end
-- ==== Proof.RefPayload.lean ====
/-
  The body's arithmetic read at one element, over the extended reals. The zero block is zero everywhere. The
  accumulate step at output channel `o` and position `l` of the block is what the accumulator held there plus the sum,
  over the tile's 512 channels `c`, of the weight block at `(o, c)` times the input block at `(c, l)`. The epilogue at
  `(o, l)` is the accumulator there plus the bias column at `o`. In particular the accumulate step at `(o, l)` reads
  the input block only in its column `l`, and the accumulator only at `(o, l)`.
-/
import proofs.«168987_g2000604510244575_pallasbulk_476_16_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Tiled

open Cert.ReferenceIdeal Cert.ReferenceIdeal.Gen
open Idealize.ShloMosaic Idealize.ShloMosaic.ValueIdx

/-- The tile's matrix product: [1024, 512] by [512, 384], one contracted axis. -/
abbrev DD := dot_S1024x512_S512x384_S1024x384_1_0_0_1_n_n

theorem lhs_0 (j : S1024x384.Idx) (k : DD.contr.Idx) : (DD.lhsIdx j k 0 : ℕ) = j 0 := by
  simp [DotDims.lhsIdx, DD, dot_S1024x512_S512x384_S1024x384_1_0_0_1_n_n]; rfl
theorem lhs_1 (j : S1024x384.Idx) (k : DD.contr.Idx) : (DD.lhsIdx j k 1 : ℕ) = k ⟨0, by decide⟩ := by
  simp [DotDims.lhsIdx, DD, dot_S1024x512_S512x384_S1024x384_1_0_0_1_n_n]; rfl
theorem rhs_0 (j : S1024x384.Idx) (k : DD.contr.Idx) : (DD.rhsIdx j k 0 : ℕ) = k ⟨0, by decide⟩ := by
  simp [DotDims.rhsIdx, DD, dot_S1024x512_S512x384_S1024x384_1_0_0_1_n_n]; rfl
theorem rhs_1 (j : S1024x384.Idx) (k : DD.contr.Idx) : (DD.rhsIdx j k 1 : ℕ) = j 1 := by
  simp [DotDims.rhsIdx, DD, dot_S1024x512_S512x384_S1024x384_1_0_0_1_n_n]; rfl

/-- The contracted index is one coordinate below 512. -/
abbrev ce : DD.contr.Idx ≃ Fin 512 := contrEquiv1 DD 512 rfl rfl

theorem lhs_at (o : Fin 1024) (l : Fin 384) (c : Fin 512) : DD.lhsIdx (ix2 o l) (ce.symm c) = ix2 o c := by
  funext a
  match a with
  | ⟨0, _⟩ => exact Fin.ext (lhs_0 _ _)
  | ⟨1, _⟩ => exact Fin.ext ((lhs_1 _ _).trans (contrEquiv1_symm_val DD 512 rfl rfl c))

theorem rhs_at (o : Fin 1024) (l : Fin 384) (c : Fin 512) : DD.rhsIdx (ix2 o l) (ce.symm c) = ix2 c l := by
  funext a
  match a with
  | ⟨0, _⟩ => exact Fin.ext ((rhs_0 _ _).trans (contrEquiv1_symm_val DD 512 rfl rfl c))
  | ⟨1, _⟩ => exact Fin.ext (rhs_1 _ _)

/-- The zero block is zero everywhere. -/
theorem pay1_apply (y : S1024x384.Idx) : k0_pay1 (F := Ideal) y = 0 := by
  unfold k0_pay1
  rw [shapeCast_self]
  exact Ideal.ofBits_zero_f32

/-- The accumulate step at `(o, l)`. -/
theorem pay2_apply (S : Vec Ideal S1024x384 .f32) (W : Vec Ideal S1024x512 .f32) (X : Vec Ideal S1x512x384 .f32)
    (o : Fin 1024) (l : Fin 384) :
    k0_pay2 (F := Ideal) S W X (ix2 o l) = S (ix2 o l) + ∑ c : Fin 512, W (ix2 o c) * X (ix3 (0 : Fin 1) c l) := by
  unfold k0_pay2
  rw [shapeCast_self, shapeCast_self]
  refine (addf_apply _ _ _).trans (congrArg (S (ix2 o l) + ·) ?_)
  refine (Ideal.matmul_constant_zero_apply DD none _ _ (ix2 o l)).trans ?_
  rw [← Equiv.sum_comp ce.symm]
  refine Finset.sum_congr rfl fun c _ => ?_
  rw [lhs_at, rhs_at, shapeCast_1ab_ab_apply]

/-- The epilogue at `(o, l)`. -/
theorem pay3_apply (A : Vec Ideal S1024x384 .f32) (B : Vec Ideal S1024x1 .f32) (u : Fin 1) (o : Fin 1024) (l : Fin 384) :
    k0_pay3 (F := Ideal) A B (ix3 u o l) = A (ix2 o l) + B (ix2 o (0 : Fin 1)) := by
  unfold k0_pay3
  rw [shapeCast_self, shapeCast_ab_1ab_apply]
  refine (addf_apply _ _ _).trans (congrArg (A (ix2 o l) + ·) ?_)
  refine broadcastTo_apply B _ (ix2 o l) (ix2 o (0 : Fin 1)) fun a => ?_
  match a with
  | ⟨0, _⟩ => rfl
  | ⟨1, _⟩ => rfl

end Cert.ReferenceIdeal.Tiled

end
-- ==== Proof.RefAcc.lean ====
/-
  The accumulator, point by point. The input block of the last position-block overhangs the array: of its 384 columns
  only the first 128 lie inside, and the buffer's other columns hold words nothing names. The accumulate step at
  column `l` reads the input block only in column `l`, so on the columns inside the array the accumulator does not
  depend on those words. This module fixes one filler (zero) for the columns outside, defines the accumulator sequence
  with it (`accZ`: restarted from the zero block at each first tile), and shows that whatever the buffer's outside
  columns hold, the real accumulator agrees with `accZ` on the inside columns (`Good`), tile after tile; likewise the
  result block's part that is written back.
-/
import proofs.«168987_g2000604510244575_pallasbulk_476_16_alg».proof.Proof.RefPayload
import proofs.«168987_g2000604510244575_pallasbulk_476_16_alg».proof.Proof.Gen.ReferenceIdeal.Frame

set_option maxRecDepth 16384

noncomputable section

open scoped BigOperators

namespace Cert.ReferenceIdeal.Tiled

open Cert.ReferenceIdeal Cert.ReferenceIdeal.Gen
open Idealize.ShloMosaic Idealize.ShloMosaic.TcCoe Idealize.ShloMosaic.ValueIdx

variable (m : (ℓ : Loc nD τ sig) → Buf (Elt Ideal) ℓ)

/-- Column `l` of the position-block met at point `n` lies inside the array: the last of the six position-blocks
    keeps 128 of its 384 columns (2048 = 5 · 384 + 128). -/
def inside (n l : ℕ) : Prop := l < if n / 3 % 6 = 5 then 128 else 384

/-- The input window's block at a point is cut only along the positions, to the columns inside the array. -/
theorem xsize_in : ∀ t : Fin cfg0.N, win0_0.xsize (grid0.coords t) 0 = 1 ∧ win0_0.xsize (grid0.coords t) 1 = 512
    ∧ win0_0.xsize (grid0.coords t) 2 = if t.val / 3 % 6 = 5 then 128 else 384 :=
  (by decide +kernel : ∀ t : Fin grid0.N, win0_0.xsize (grid0.coords t) 0 = 1 ∧ win0_0.xsize (grid0.coords t) 1 = 512
    ∧ win0_0.xsize (grid0.coords t) 2 = if t.val / 3 % 6 = 5 then 128 else 384)
/-- So is the result window's. -/
theorem xsize_out : ∀ t : Fin cfg0.N, win0_3.xsize (grid0.coords t) 0 = 1 ∧ win0_3.xsize (grid0.coords t) 1 = 1024
    ∧ win0_3.xsize (grid0.coords t) 2 = if t.val / 3 % 6 = 5 then 128 else 384 :=
  (by decide +kernel : ∀ t : Fin grid0.N, win0_3.xsize (grid0.coords t) 0 = 1 ∧ win0_3.xsize (grid0.coords t) 1 = 1024
    ∧ win0_3.xsize (grid0.coords t) 2 = if t.val / 3 % 6 = 5 then 128 else 384)

/-- On a column inside the array, a fetched input block does not depend on what the buffer held outside. -/
theorem fill_inside (t : Fin cfg0.N) (d d' : Vec Ideal S1x512x384 .f32)
    (g : (win0_0.xblock (grid0.coords t)).Idx → Elt Ideal .f32) (k : Fin 512) (l : Fin 384) (h : inside t.val l.val) :
    win0_0.fill (grid0.coords t) d g (ix3 (0 : Fin 1) k l) = win0_0.fill (grid0.coords t) d' g (ix3 (0 : Fin 1) k l) := by
  have hm : win0_0.moved (grid0.coords t) (ix3 (0 : Fin 1) k l) = true :=
    (win0_0.moved_iff _ _).mpr fun a => by
      match a with
      | ⟨0, _⟩ => exact lt_of_lt_of_eq Nat.one_pos (xsize_in t).1.symm
      | ⟨1, _⟩ => exact lt_of_lt_of_eq k.isLt (xsize_in t).2.1.symm
      | ⟨2, _⟩ => exact lt_of_lt_of_eq h (xsize_in t).2.2.symm
  unfold Pipeline.Window.fill
  rw [dif_pos hm, dif_pos hm]

/-- The input block at a point with the zero filler outside the array. -/
def xz (c : Dev nD) (t : Fin cfg0.N) : Vec Ideal S1x512x384 .f32 :=
  win0_0.fill (grid0.coords t) (fun _ => (0 : EReal)) (iblk m c 0 t)

/-- One accumulate step at point `n`, with the zero filler. -/
def stepZ (c : Dev nD) (n : ℕ) (S : Vec Ideal S1024x384 .f32) : Vec Ideal S1024x384 .f32 :=
  if h : n < cfg0.N then k0_pay2 S (iblk m c 1 ⟨n, h⟩) (xz m c ⟨n, h⟩) else S

/-- The accumulator after point `n`, with the zero filler: restarted from the zero block at each first tile. -/
def accZ (c : Dev nD) : ℕ → Vec Ideal S1024x384 .f32
  | 0 => stepZ m c 0 (k0_pay1 (F := Ideal))
  | n + 1 => if (n + 1) % 3 = 0 then stepZ m c (n + 1) (k0_pay1 (F := Ideal)) else stepZ m c (n + 1) (accZ c n)

theorem accZ_first (c : Dev nD) (t : Fin cfg0.N) (h0 : t.val % 3 = 0) :
    accZ m c t.val = k0_pay2 (k0_pay1 (F := Ideal)) (iblk m c 1 t) (xz m c t) := by
  obtain ⟨n, hn⟩ := t
  cases n with
  | zero => show stepZ m c 0 _ = _; unfold stepZ; rw [dif_pos hn]
  | succ n => show (if (n + 1) % 3 = 0 then _ else _) = _; rw [if_pos h0]; unfold stepZ; rw [dif_pos hn]

theorem accZ_next (c : Dev nD) (t : Fin cfg0.N) (h0 : t.val % 3 ≠ 0) :
    accZ m c t.val = k0_pay2 (accZ m c (t.val - 1)) (iblk m c 1 t) (xz m c t) := by
  obtain ⟨n, hn⟩ := t
  cases n with
  | zero => exact absurd rfl h0
  | succ n => show (if (n + 1) % 3 = 0 then _ else _) = _; rw [if_neg h0]; unfold stepZ; rw [dif_pos hn]; rfl

/-- Contents `S` of the accumulator agree with `accZ` after point `n` on the columns inside the array. -/
def Good (c : Dev nD) (n : ℕ) (S : Vec Ideal S1024x384 .f32) : Prop :=
  ∀ (o : Fin 1024) (l : Fin 384), inside n l.val → S (ix2 o l) = accZ m c n (ix2 o l)

/-- The accumulate step reads column `l` of the input block and element `(o, l)` of the accumulator only. -/
theorem step_local (S S' : Vec Ideal S1024x384 .f32) (W : Vec Ideal S1024x512 .f32) (X X' : Vec Ideal S1x512x384 .f32)
    (o : Fin 1024) (l : Fin 384) (hS : S (ix2 o l) = S' (ix2 o l))
    (hX : ∀ k : Fin 512, X (ix3 (0 : Fin 1) k l) = X' (ix3 (0 : Fin 1) k l)) :
    k0_pay2 (F := Ideal) S W X (ix2 o l) = k0_pay2 (F := Ideal) S' W X' (ix2 o l) := by
  rw [pay2_apply, pay2_apply, hS]
  exact congrArg _ (Finset.sum_congr rfl fun k _ => by rw [hX k])

/-- After a first tile, whatever the buffer held outside the array. -/
theorem good_first (c : Dev nD) (t : Fin cfg0.N) (h0 : t.val % 3 = 0) (d : Vec Ideal S1x512x384 .f32) :
    Good m c t.val (k0_pay2 (k0_pay1 (F := Ideal)) (iblk m c 1 t) (win0_0.fill (grid0.coords t) d (iblk m c 0 t))) := by
  intro o l hl
  rw [accZ_first m c t h0]
  exact step_local _ _ _ _ _ o l rfl fun k => fill_inside t _ _ _ k l hl

/-- After a later tile, from the tile before. -/
theorem good_next (c : Dev nD) (t : Fin cfg0.N) (h0 : t.val % 3 ≠ 0) (d : Vec Ideal S1x512x384 .f32)
    (S : Vec Ideal S1024x384 .f32) (hS : Good m c (t.val - 1) S) :
    Good m c t.val (k0_pay2 S (iblk m c 1 t) (win0_0.fill (grid0.coords t) d (iblk m c 0 t))) := by
  intro o l hl
  rw [accZ_next m c t h0]
  have hp : inside (t.val - 1) l.val := by
    unfold inside at hl ⊢
    have e : (t.val - 1) / 3 = t.val / 3 := by omega
    rw [e]; exact hl
  exact step_local _ _ _ _ _ o l (hS o l hp) fun k => fill_inside t _ _ _ k l hl

/-- The result block after a last tile, with the zero filler. -/
def outZ (c : Dev nD) (t : Fin cfg0.N) : Vec Ideal S1x1024x384 .f32 :=
  k0_pay3 (F := Ideal) (accZ m c t.val) (iblk m c 2 t)

/-- What is written back of the result block does not depend on what the buffers held outside the array. -/
theorem out_good (c : Dev nD) (t : Fin cfg0.N) (S : Vec Ideal S1024x384 .f32) (hS : Good m c t.val S) :
    win0_3.cut (grid0.coords t) (k0_pay3 (F := Ideal) S (iblk m c 2 t)) = win0_3.cut (grid0.coords t) (outZ m c t) := by
  funext j
  show k0_pay3 (F := Ideal) S (iblk m c 2 t) (win0_3.xinj (grid0.coords t) j) = outZ m c t (win0_3.xinj (grid0.coords t) j)
  obtain ⟨u, o, l, e⟩ : ∃ (u : Fin 1) (o : Fin 1024) (l : Fin 384),
      (win0_3.xinj (grid0.coords t) j : S1x1024x384.Idx) = ix3 u o l := ⟨_, _, _, eq_ix3 _⟩
  have hl2 : l.val = (j 2).val := (congrArg Fin.val (congrFun e 2)).symm
  have hl : inside t.val l.val := by
    unfold inside
    have h3 : (j 2).val < win0_3.xsize (grid0.coords t) 2 := (j 2).isLt
    rw [(xsize_out t).2.2] at h3
    rw [hl2]; exact h3
  unfold outZ
  rw [e, pay3_apply, pay3_apply, hS o l hl]

end Cert.ReferenceIdeal.Tiled

end
-- ==== Proof.RefData.lean ====
/-
  The proof data of the tiled reduction at the ideal instance. After the body at a point: the input window's buffer
  holds its block (on the part inside the array), the weight and bias windows' buffers hold their blocks, and at a last
  tile the result window's buffer holds, on the part written back, the accumulator plus the bias. Between points the
  body carries its accumulator: the invariant says that it agrees, on the columns inside the array, with the
  accumulator sequence computed with the zero filler.
-/
import proofs.«168987_g2000604510244575_pallasbulk_476_16_alg».proof.Proof.RefPieces
import proofs.«168987_g2000604510244575_pallasbulk_476_16_alg».proof.Proof.RefAcc

set_option maxRecDepth 16384

noncomputable section

namespace Cert.ReferenceIdeal.Tiled

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Each window's current staging memref at point `t`, and its wholeness. -/
abbrev ms0 (t : Fin cfg0.N) : Memref sig .tc .vmem S1x512x384 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x384 .f32 := win0_3.stage (cfg0.slots t 3)
abbrev hs3 (t : Fin cfg0.N) : (ms3 t).IsWhole := hstage0_3 ((cfg0.slots t 3).cast nbuf0_3)

/-- The region's own invariant: the accumulator at some contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: before the first point the region's own; afterwards the accumulator at
    contents that agree with `accZ` after point `n - 1` on the columns inside the array. -/
def PhiS (c : Dev nD) : ℕ → sProp 𝕄
  | 0 => Pipeline.ΦA spec0 c
  | n + 1 => iprop(iprop((∃ S, ⌜Good m c n S⌝ ∗ owns (c : Thread nD τ) scM fullShare S)) ∗ (∃ r, prngReg c r))

theorem PhiS_pos (c : Dev nD) (n : ℕ) (hz : n ≠ 0) :
    PhiS m c n = iprop(iprop((∃ S, ⌜Good m c (n - 1) S⌝ ∗ owns (c : Thread nD τ) scM fullShare S)) ∗ (∃ r, prngReg c r)) := by
  cases n with
  | zero => exact absurd rfl hz
  | succ n => rfl

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => xz m c t
    | ⟨1, _⟩ => iblk m c 1 t
    | ⟨2, _⟩ => iblk m c 2 t
    | ⟨3, _⟩ => outZ m c t
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = xz m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outZ m c t := by dsimp only [dats]

/-- The input window is fetched at every point: its buffer holds the block on the part inside the array. -/
theorem before0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
/-- The weight and bias windows' buffers hold their blocks at every point. -/
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body hands back, window by window. -/
theorem leaves0 (c : Dev nD) (t : Fin cfg0.N) :
    (dats m 0 c).leaves 0 t = iprop(∃ d, owns (c : Thread nD τ) (ms0 t) fullShare (win0_0.fill (grid0.coords t) d (iblk m c 0 t))) := by
  unfold Dat.leaves; rw [in_live0 t]
  show iprop(∃ d, owns (c : Thread nD τ) (ms0 t) fullShare (win0_0.fill (grid0.coords t) d (win0_0.cut (grid0.coords t) ((dats m 0 c).after 0 t)))) = _
  rw [after0]; unfold xz; rw [win0_0.cut_fill]
theorem leaves1 (c : Dev nD) (t : Fin cfg0.N) :
    (dats m 0 c).leaves 1 t = owns (c : Thread nD τ) (ms1 t) fullShare (iblk m c 1 t) := by
  unfold Dat.leaves; rw [in_live1 t]
  show owns (c : Thread nD τ) (ms1 t) fullShare ((dats m 0 c).after 1 t) = _
  rw [after1]
theorem leaves2 (c : Dev nD) (t : Fin cfg0.N) :
    (dats m 0 c).leaves 2 t = owns (c : Thread nD τ) (ms2 t) fullShare (iblk m c 2 t) := by
  unfold Dat.leaves; rw [in_live2 t]
  show owns (c : Thread nD τ) (ms2 t) fullShare ((dats m 0 c).after 2 t) = _
  rw [after2]
theorem leaves3_idle (c : Dev nD) (t : Fin cfg0.N) (h : ¬isLast (grid0.coords t)) :
    (dats m 0 c).leaves 3 t = iprop(∃ d, owns (c : Thread nD τ) (ms3 t) fullShare ((dats m 0 c).before 3 t d)) :=
  (dats m 0 c).leaves_idle 3 t (out_idle t h) (out_noflush t h)
theorem leaves3_last (c : Dev nD) (t : Fin cfg0.N) (h : isLast (grid0.coords t)) :
    (dats m 0 c).leaves 3 t = iprop(∃ d, owns (c : Thread nD τ) (ms3 t) fullShare (win0_3.fill (grid0.coords t) d (win0_3.cut (grid0.coords t) (outZ m c t)))) := by
  unfold Dat.leaves; rw [out_live t h]
  show iprop(∃ d, owns (c : Thread nD τ) (ms3 t) fullShare (win0_3.fill (grid0.coords t) d (win0_3.cut (grid0.coords t) ((dats m 0 c).after 3 t)))) = _
  rw [after3]

end Cert.ReferenceIdeal.Tiled

end
-- ==== Proof.RefBody.lean ====
/-
  The body's obligation at every point, by the tile the point is in. The input, weight and bias buffers are handed
  over holding their blocks and handed back unchanged. At a first tile the accumulator may hold anything and is left
  at the first step's value; at a later tile it is found agreeing with the zero-filler sequence on the columns inside
  the array and is left so; at a last tile the result buffer is left holding, on the part written back, that sequence's
  value plus the bias. Then the run of the whole program, and the frame.
-/
import proofs.«168987_g2000604510244575_pallasbulk_476_16_alg».proof.Proof.RefData

set_option maxRecDepth 16384

noncomputable section

namespace Cert.ReferenceIdeal.Tiled

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4000000 in
theorem sound_body (c : Dev nD) (t : Fin cfg0.N) :
    bodyPre m c t ⊢ wp frame (wpE (defs₀ (F := Ideal)) Variants.none c none) Set.univ (bodyAt0 (F := Ideal) t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = iprop(iprop((∃ S, ⌜Good m c t.val S⌝ ∗ owns (c : Thread nD τ) scM fullShare S)) ∗ (∃ r, prngReg c r)) from rfl,
    show (dats m 0 c).Φ t.castSucc = PhiS m c t.val from rfl]
  rw [leaves0, leaves1, leaves2]
  by_cases h0 : t.val % 3 = 0
  · -- a first tile
    have hc1 : isFirst (grid0.coords t) := (isFirst_iff t).mpr h0
    have hc2 : ¬isLast (grid0.coords t) := fun h => by have := (isLast_iff t).mp h; omega
    rw [leaves3_idle m c t hc2]
    have hpre : PhiS m c t.val ⊢ (iprop(iprop((∃ d, owns (c : Thread nD τ) scM fullShare d)) ∗ (∃ r, prngReg c r)) : sProp 𝕄) := by
      by_cases hz : t.val = 0
      · rw [show PhiS m c t.val = Pipeline.ΦA spec0 c from by rw [hz]; rfl, PhiA_eq]
      · rw [PhiS_pos m c t.val hz]
        iintro ⟨⟨%S0, %hS0, HS⟩, Hg⟩
        isplitl [HS]; · iexists S0; iexact HS
        iexact Hg
    iintro ⟨HΦ, Ho, ⟨%d0, H0⟩, ⟨%d1, H1⟩, ⟨%d2, H2⟩, ⟨%d3, H3⟩⟩
    ihave ⟨HS, Hg⟩ := hpre $$ HΦ
    iapply ((runFirst c (grid0.coords t) _ (hs0 t) _ (hs1 t) _ (hs2 t) _ (hs3 t) scM (Memref.isWhole_whole _) hc1 hc2 (win0_0.fill (grid0.coords t) d0 (iblk m c 0 t)) (iblk m c 1 t) (iblk m c 2 t)).2 ((dats m 0 c).before 3 t d3) Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hg]
    · isplitl [HS]
      · iexists (accFirst c (grid0.coords t) _ (hs0 t) _ (hs1 t) _ (hs2 t) _ (hs3 t) scM (Memref.isWhole_whole _) (win0_0.fill (grid0.coords t) d0 (iblk m c 0 t)) (iblk m c 1 t) (iblk m c 2 t) hc1 hc2)
        isplitr
        · ipureintro; rw [accFirst_eq]; exact good_first m c t h0 d0
        unfold owns; iexists _; isplitr
        swap; · iexact HS
        ipureintro; exact View.read_writes_of_cover _ _ _ _ _ (cover_first c _ _ _ _ _ _ _ _ _ _ _ _ _ _ hc1 hc2)
      iexact Hg
    isplitl [Ho]; · iexact Ho
    isplitl [H0]; · iexists d0; iexact H0
    isplitl [H1]; · iexact H1
    isplitl [H2]; · iexact H2
    iexists d3; iexact H3
  · have hc1 : ¬isFirst (grid0.coords t) := fun h => h0 ((isFirst_iff t).mp h)
    have hz : t.val ≠ 0 := fun h => h0 (by rw [h])
    rw [PhiS_pos m c t.val hz]
    by_cases h2 : t.val % 3 = 2
    · -- a last tile
      have hc2 : isLast (grid0.coords t) := (isLast_iff t).mpr h2
      rw [leaves3_last m c t hc2]
      iintro ⟨⟨⟨%S0, %hS0, HS⟩, Hg⟩, Ho, ⟨%d0, H0⟩, ⟨%d1, H1⟩, ⟨%d2, H2⟩, ⟨%d3, H3⟩⟩
      iapply ((runLast c (grid0.coords t) _ (hs0 t) _ (hs1 t) _ (hs2 t) _ (hs3 t) scM (Memref.isWhole_whole _) hc1 hc2 (win0_0.fill (grid0.coords t) d0 (iblk m c 0 t)) (iblk m c 1 t) (iblk m c 2 t) S0).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      have hgood : Good m c t.val (k0_pay2 (F := Ideal) S0 (iblk m c 1 t) (win0_0.fill (grid0.coords t) d0 (iblk m c 0 t))) := good_next m c t h0 d0 S0 hS0
      isplitl [HS Hg]
      · isplitl [HS]
        · iexists (accLast c (grid0.coords t) _ (hs0 t) _ (hs1 t) _ (hs2 t) _ (hs3 t) scM (Memref.isWhole_whole _) (win0_0.fill (grid0.coords t) d0 (iblk m c 0 t)) (iblk m c 1 t) (iblk m c 2 t) S0 hc1 hc2)
          isplitr
          · ipureintro; rw [accLast_eq]; exact hgood
          unfold owns; iexists _; isplitr
          swap; · iexact HS
          ipureintro; exact View.read_writes_of_cover _ _ _ _ _ (cover_last_acc c _ _ _ _ _ _ _ _ _ _ _ _ _ _ _ hc1 hc2)
        iexact Hg
      isplitl [Ho]; · iexact Ho
      isplitl [H0]; · iexists d0; iexact H0
      isplitl [H1]; · iexact H1
      isplitl [H2]; · iexact H2
      have hfill : win0_3.fill (grid0.coords t) (outLast c (grid0.coords t) _ (hs0 t) _ (hs1 t) _ (hs2 t) _ (hs3 t) scM (Memref.isWhole_whole _) (win0_0.fill (grid0.coords t) d0 (iblk m c 0 t)) (iblk m c 1 t) (iblk m c 2 t) S0 hc1 hc2)
            (win0_3.cut (grid0.coords t) (outZ m c t))
          = outLast c (grid0.coords t) _ (hs0 t) _ (hs1 t) _ (hs2 t) _ (hs3 t) scM (Memref.isWhole_whole _) (win0_0.fill (grid0.coords t) d0 (iblk m c 0 t)) (iblk m c 1 t) (iblk m c 2 t) S0 hc1 hc2 :=
        win0_3.fill_congr_cut _ (by rw [outLast_eq]; exact out_good m c t _ hgood)
      iexists (outLast c (grid0.coords t) _ (hs0 t) _ (hs1 t) _ (hs2 t) _ (hs3 t) scM (Memref.isWhole_whole _) (win0_0.fill (grid0.coords t) d0 (iblk m c 0 t)) (iblk m c 1 t) (iblk m c 2 t) S0 hc1 hc2)
      rw [hfill]
      unfold owns; iexists _; isplitr
      swap; · iexact H3
      ipureintro; exact View.read_writes_of_cover _ _ _ _ _ (cover_last_out c _ _ _ _ _ _ _ _ _ _ _ _ _ _ _ hc1 hc2)
    · -- a middle tile
      have hc2 : ¬isLast (grid0.coords t) := fun h => h2 ((isLast_iff t).mp h)
      rw [leaves3_idle m c t hc2]
      iintro ⟨⟨⟨%S0, %hS0, HS⟩, Hg⟩, Ho, ⟨%d0, H0⟩, ⟨%d1, H1⟩, ⟨%d2, H2⟩, ⟨%d3, H3⟩⟩
      iapply ((runMid c (grid0.coords t) _ (hs0 t) _ (hs1 t) _ (hs2 t) _ (hs3 t) scM (Memref.isWhole_whole _) hc1 hc2 (win0_0.fill (grid0.coords t) d0 (iblk m c 0 t)) (iblk m c 1 t) (iblk m c 2 t) S0).2 ((dats m 0 c).before 3 t d3) Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · iexists (accMid c (grid0.coords t) _ (hs0 t) _ (hs1 t) _ (hs2 t) _ (hs3 t) scM (Memref.isWhole_whole _) (win0_0.fill (grid0.coords t) d0 (iblk m c 0 t)) (iblk m c 1 t) (iblk m c 2 t) S0 hc1 hc2)
          isplitr
          · ipureintro; rw [accMid_eq]; exact good_next m c t h0 d0 S0 hS0
          unfold owns; iexists _; isplitr
          swap; · iexact HS
          ipureintro; exact View.read_writes_of_cover _ _ _ _ _ (cover_mid c _ _ _ _ _ _ _ _ _ _ _ _ _ _ _ hc1 hc2)
        iexact Hg
      isplitl [Ho]; · iexact Ho
      isplitl [H0]; · iexists d0; iexact H0
      isplitl [H1]; · iexact H1
      isplitl [H2]; · iexact H2
      iexists d3; iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the region's own back: the accumulator's contents are forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 144 from N_0]; decide), PhiA_eq]
  iintro ⟨⟨%S0, %hS0, HS⟩, Hg⟩
  isplitl [HS]; · iexists S0; iexact HS
  iexact Hg

set_option backward.isDefEq.respectTransparency.types false in
/-- For any extended-real contents of the buffers, from any memory with zero counters: every weakly fair execution of
    the program terminates without a fault, every array of the pipeline ends at what the proof data computes and every
    other buffer as it was at the region's entry. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: the three argument arrays end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Tiled

end
-- ==== Proof.RefBlocks.lean ====
/-
  The reference's window blocks, entry by entry, in terms of its three arguments. The grid's 144 points are the 48
  (batch element, position-block) pairs times the three channel tiles, the tile moving fastest: at point t the batch
  element is t / 18, the position-block t / 3 % 6 and the channel tile t % 3. The input's block at t is
  [1, 512, 384] at block index (t / 18, t % 3, t / 3 % 6) of x : [8, 1536, 2048], the weight's is [1024, 512] at block
  index (0, t % 3) of the weight w : [1024, 1536, 1] viewed as [1024, 1536], the bias's is the whole bias b : [1024]
  viewed as the column [1024, 1], and the result's is [1, 1024, 384] at block index (t / 18, 0, t / 3 % 6). So the
  weight block at (o, k) is w[o, 512 · (t % 3) + k, 0], the bias block at (o, 0) is b[o], and, on a column l of the
  block that lies inside the array, the input block at (0, k, l) is x[t / 18, 512 · (t % 3) + k, 384 · (t / 3 % 6) + l].
-/
import proofs.«168987_g2000604510244575_pallasbulk_476_16_alg».proof.Proof.RefAcc
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.ReferenceIdeal.Tiled

open Cert.ReferenceIdeal Cert.ReferenceIdeal.Gen
open Idealize.ShloMosaic Idealize.ShloMosaic.TcCoe Idealize.ShloMosaic.ValueIdx

variable (m : (ℓ : Loc nD τ sig) → Buf (Elt Ideal) ℓ)

/-! ## The windows' block indices over the grid -/

/-- The input's block index at point t: batch element, channel tile, position-block. -/
theorem idx_in : ∀ t : Fin cfg0.N, win0_0.index t 0 = t.val / 18 ∧ win0_0.index t 1 = t.val % 3 ∧ win0_0.index t 2 = t.val / 3 % 6 :=
  (by decide +kernel : ∀ t : Fin grid0.N, win0_0.index t 0 = t.val / 18 ∧ win0_0.index t 1 = t.val % 3 ∧ win0_0.index t 2 = t.val / 3 % 6)

/-- The weight's block index at point t: all the output channels, the channel tile. -/
theorem idx_w : ∀ t : Fin cfg0.N, win0_1.index t 0 = 0 ∧ win0_1.index t 1 = t.val % 3 :=
  (by decide +kernel : ∀ t : Fin grid0.N, win0_1.index t 0 = 0 ∧ win0_1.index t 1 = t.val % 3)

/-- The bias's block index is zero at every point. -/
theorem idx_b : ∀ t : Fin cfg0.N, win0_2.index t 0 = 0 ∧ win0_2.index t 1 = 0 :=
  (by decide +kernel : ∀ t : Fin grid0.N, win0_2.index t 0 = 0 ∧ win0_2.index t 1 = 0)

/-- The result's block index at point t: batch element, all the output channels, position-block. -/
theorem idx_out : ∀ t : Fin cfg0.N, win0_3.index t 0 = t.val / 18 ∧ win0_3.index t 1 = 0 ∧ win0_3.index t 2 = t.val / 3 % 6 :=
  (by decide +kernel : ∀ t : Fin grid0.N, win0_3.index t 0 = t.val / 18 ∧ win0_3.index t 1 = 0 ∧ win0_3.index t 2 = t.val / 3 % 6)

/-! ## The arrays the host made before the call -/

/-- The weight window's array at (o, k) is the weight argument at (o, k, 0): a reshape that drops the trailing
    unit axis. -/
theorem V_weight_at (c : Dev nD) (o : Fin 1024) (kk : Fin 1536) :
    (V m c main_v0 : S1024x1536.Idx → EReal) (ix2 o kk)
      = (m ((c : Thread nD τ).loc main_arg1) : S1024x1536x1.Idx → EReal) (ix3 o kk (0 : Fin 1)) := by
  have e : (V m c main_v0 : S1024x1536.Idx → EReal)
      = shapeCast S1024x1536 (m ((c : Thread nD τ).loc main_arg1) : S1024x1536x1.Idx → EReal)
          Facts₀.shapeCasts_S1024x1536x1_S1024x1536 := by
    dsimp only [Gen.V, Gen.hostOps0]; after_results; rfl
  rw [e]
  refine shapeCast_apply _ _ _ _ ?_
  show (S1024x1536x1.rowMajor (ix3 o kk (0 : Fin 1))).val = (S1024x1536.rowMajor (ix2 o kk)).val
  rw [Shape.rowMajor_val_three, Shape.rowMajor_val_two]
  show (o.val * 1536 + kk.val) * 1 + 0 = o.val * 1536 + kk.val
  omega

/-- The bias window's array at (o, 0) is the bias argument at o: a reshape that adds a trailing unit axis. -/
theorem V_bias_at (c : Dev nD) (o : Fin 1024) (z : Fin 1) :
    (V m c main_v1 : S1024x1.Idx → EReal) (ix2 o z)
      = (m ((c : Thread nD τ).loc main_arg2) : S1024.Idx → EReal) (ix1 o) := by
  have e : (V m c main_v1 : S1024x1.Idx → EReal)
      = shapeCast S1024x1 (m ((c : Thread nD τ).loc main_arg2) : S1024.Idx → EReal) Facts₀.shapeCasts_S1024_S1024x1 := by
    dsimp only [Gen.V, Gen.hostOps0]; after_results; rfl
  rw [e]
  refine shapeCast_apply _ _ _ _ ?_
  show (S1024.rowMajor (ix1 o)).val = (S1024x1.rowMajor (ix2 o z)).val
  rw [Shape.rowMajor_val_one, Shape.rowMajor_val_two]
  show o.val = o.val * 1 + z.val
  have := z.isLt
  omega

/-! ## Each input window's block at a point, entry by entry -/

/-- The weight block at point t, at (o, k), is the weight argument at (o, 512 · (t % 3) + k, 0). -/
theorem wblk_at (c : Dev nD) (t : Fin cfg0.N) (o : Fin 1024) (k : Fin 512) (kk : Fin 1536) (hk : kk.val = 512 * (t.val % 3) + k.val) :
    iblk m c 1 t (ix2 o k) = m ((c : Thread nD τ).loc main_arg1) (ix3 o kk (0 : Fin 1)) := by
  obtain ⟨e0, e1⟩ := idx_w t
  unfold iblk
  rw [View.read_apply]
  show (V m c main_v0 : S1024x1536.Idx → EReal) (((cfg0.win 1).blk t).view.emb (ix2 o k)) = _
  have he : ((cfg0.win 1).blk t).view.emb (ix2 o k) = ix2 o kk := by
    funext a
    apply Fin.ext
    match a with
    | ⟨0, _⟩ => show win0_1.index t 0 * 1024 + 1 * o.val = o.val; omega
    | ⟨1, _⟩ => show win0_1.index t 1 * 512 + 1 * k.val = kk.val; omega
  rw [he]
  exact V_weight_at m c o kk

/-- The bias block at any point, at (o, 0), is the bias argument at o. -/
theorem bblk_at (c : Dev nD) (t : Fin cfg0.N) (o : Fin 1024) :
    iblk m c 2 t (ix2 o (0 : Fin 1)) = m ((c : Thread nD τ).loc main_arg2) (ix1 o) := by
  obtain ⟨e0, e1⟩ := idx_b t
  unfold iblk
  rw [View.read_apply]
  show (V m c main_v1 : S1024x1.Idx → EReal) (((cfg0.win 2).blk t).view.emb (ix2 o (0 : Fin 1))) = _
  have he : ((cfg0.win 2).blk t).view.emb (ix2 o (0 : Fin 1)) = ix2 o (0 : Fin 1) := by
    funext a
    apply Fin.ext
    match a with
    | ⟨0, _⟩ => show win0_2.index t 0 * 1024 + 1 * o.val = o.val; omega
    | ⟨1, _⟩ => show win0_2.index t 1 * 1 + 1 * 0 = 0; omega
  rw [he]
  exact V_bias_at m c o (0 : Fin 1)

/-- The input block at point t with the zero filler, at (0, k, l) on a column l inside the array, is the input
    argument at batch element t / 18, channel 512 · (t % 3) + k and position 384 · (t / 3 % 6) + l. -/
theorem xblk_at (c : Dev nD) (t : Fin cfg0.N) (k : Fin 512) (l : Fin 384) (hl : inside t.val l.val) (n : Fin 8) (kk : Fin 1536) (ll : Fin 2048)
    (hn : n.val = t.val / 18) (hk : kk.val = 512 * (t.val % 3) + k.val) (hll : ll.val = 384 * (t.val / 3 % 6) + l.val) :
    xz m c t (ix3 (0 : Fin 1) k l) = m ((c : Thread nD τ).loc main_arg0) (ix3 n kk ll) := by
  obtain ⟨e0, e1, e2⟩ := idx_in t
  have hm : win0_0.moved (grid0.coords t) (ix3 (0 : Fin 1) k l) = true :=
    (win0_0.moved_iff _ _).mpr fun a => by
      match a with
      | ⟨0, _⟩ => exact lt_of_lt_of_eq Nat.one_pos (xsize_in t).1.symm
      | ⟨1, _⟩ => exact lt_of_lt_of_eq k.isLt (xsize_in t).2.1.symm
      | ⟨2, _⟩ => exact lt_of_lt_of_eq hl (xsize_in t).2.2.symm
  unfold xz Pipeline.Window.fill
  rw [dif_pos hm]
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index t 0 * 1 + 1 * 0 = n.val; omega
  | ⟨1, _⟩ => show win0_0.index t 1 * 512 + 1 * k.val = kk.val; omega
  | ⟨2, _⟩ => show win0_0.index t 2 * 384 + 1 * l.val = ll.val; omega

end Cert.ReferenceIdeal.Tiled

end
-- ==== Proof.RefValue.lean ====
/-
  The reference's result array as one function of the three arguments. A write-back happens at each last tile; what
  it writes, at output channel `o` and column `l` inside the array, is the three tiles' channel sums added in order to
  zero, plus the bias at `o`. The three runs of 512 channels are the 1536 channels, so that is the pointwise
  convolution at batch `t / 18`, channel `o`, position `384 · (t / 3 mod 6) + l`: the index the block puts `(0, o, l)` on.
  The 48 written blocks, cut at the array's end, tile the result array; so after the run it is the convolution everywhere.
-/
import proofs.«168987_g2000604510244575_pallasbulk_476_16_alg».proof.Proof.RefBody
import proofs.«168987_g2000604510244575_pallasbulk_476_16_alg».proof.Proof.RefBlocks
import proofs.«168987_g2000604510244575_pallasbulk_476_16_alg».proof.Proof.Spec
import Idealize.ShloMosaic.Lib.Pipeline.Value

set_option maxRecDepth 16384

noncomputable section

namespace Cert.ReferenceIdeal.Tiled

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open scoped BigOperators

/-- The result array after the run: the pointwise convolution of the three arguments as launched. -/
abbrev result (c : Dev nD) : S8x1024x2048.Idx → EReal :=
  Cert.PwConv.conv (m ((c : Thread nD τ).loc main_arg0)) (m ((c : Thread nD τ).loc main_arg1)) (m ((c : Thread nD τ).loc main_arg2))

/-- After a last tile, on a column inside the array, the accumulator is the whole channel sum. -/
theorem acc_last (c : Dev nD) (t : Fin cfg0.N) (h2 : t.val % 3 = 2) (o : Fin 1024) (l : Fin 384) (hl : inside t.val l.val)
    (n : Fin 8) (ll : Fin 2048) (hn : n.val = t.val / 18) (hll : ll.val = 384 * (t.val / 3 % 6) + l.val) :
    accZ m c t.val (ix2 o l) = Cert.PwConv.chanSum (m ((c : Thread nD τ).loc main_arg0)) (m ((c : Thread nD τ).loc main_arg1)) n o ll := by
  have htl := t.isLt
  obtain ⟨t1, ht1⟩ : ∃ t1 : Fin cfg0.N, t1.val = t.val - 1 := ⟨⟨t.val - 1, by omega⟩, rfl⟩
  obtain ⟨t2, ht2⟩ : ∃ t2 : Fin cfg0.N, t2.val = t1.val - 1 := ⟨⟨t1.val - 1, by omega⟩, rfl⟩
  have hin1 : inside t1.val l.val := by unfold inside at hl ⊢; rw [show t1.val / 3 = t.val / 3 from by omega]; exact hl
  have hin2 : inside t2.val l.val := by unfold inside at hl ⊢; rw [show t2.val / 3 = t.val / 3 from by omega]; exact hl
  rw [accZ_next m c t (by omega), pay2_apply, ← ht1, accZ_next m c t1 (by omega), pay2_apply, ← ht2,
    accZ_first m c t2 (by omega), pay2_apply, pay1_apply]
  unfold Cert.PwConv.chanSum
  rw [Cert.PwConv.sum_three_runs]
  refine congrArg₂ (· + ·) (congrArg₂ (· + ·) (congrArg (0 + ·) ?_) ?_) ?_
  · exact Finset.sum_congr rfl fun k _ => by
      rw [wblk_at m c t2 o k (Cert.PwConv.chan 0 k) (by show 512 * (0 : Fin 3).val + k.val = _; simp; omega),
        xblk_at m c t2 k l hin2 n (Cert.PwConv.chan 0 k) ll (by omega) (by show 512 * (0 : Fin 3).val + k.val = _; simp; omega) (by omega)]
  · exact Finset.sum_congr rfl fun k _ => by
      rw [wblk_at m c t1 o k (Cert.PwConv.chan 1 k) (by show 512 * (1 : Fin 3).val + k.val = _; simp; omega),
        xblk_at m c t1 k l hin1 n (Cert.PwConv.chan 1 k) ll (by omega) (by show 512 * (1 : Fin 3).val + k.val = _; simp; omega) (by omega)]
  · exact Finset.sum_congr rfl fun k _ => by
      rw [wblk_at m c t o k (Cert.PwConv.chan 2 k) (by show 512 * (2 : Fin 3).val + k.val = _; simp; omega),
        xblk_at m c t k l hl n (Cert.PwConv.chan 2 k) ll hn (by show 512 * (2 : Fin 3).val + k.val = _; simp; omega) hll]

/-- What a last tile writes back is its block of the convolution. -/
theorem flushed_eq (c : Dev nD) (t : Fin cfg0.N) (hf : (cfg0.win 3).flush t = true) :
    (dats m 0 c).flushed 3 t = ((cfg0.win 3).blk t).view.read (Elt Ideal) (result m c) := by
  have h2 : t.val % 3 = 2 := (flush0_3 t).mp hf
  have hN : cfg0.N = 144 := N_0
  have htl := t.isLt
  show (cfg0.win 3).cut (grid0.coords t) ((dats m 0 c).after 3 t) = _
  rw [after3]
  funext j
  show outZ m c t ((cfg0.win 3).xinj (grid0.coords t) j) = result m c (((cfg0.win 3).blk t).view.emb j)
  obtain ⟨u, o, l, e⟩ : ∃ (u : Fin 1) (o : Fin 1024) (l : Fin 384),
      ((cfg0.win 3).xinj (grid0.coords t) j : S1x1024x384.Idx) = ix3 u o l := ⟨_, _, _, eq_ix3 _⟩
  have ho : o.val = (j 1).val := (congrArg Fin.val (congrFun e 1)).symm
  have hl2 : l.val = (j 2).val := (congrArg Fin.val (congrFun e 2)).symm
  have hj0 : (j 0).val < win0_3.xsize (grid0.coords t) 0 := (j 0).isLt
  rw [(xsize_out t).1] at hj0
  have h3 : (j 2).val < win0_3.xsize (grid0.coords t) 2 := (j 2).isLt
  rw [(xsize_out t).2.2] at h3
  have hl : inside t.val l.val := by unfold inside; rw [hl2]; exact h3
  obtain ⟨i0, i1, i2⟩ := idx_out t
  have hq : t.val / 3 % 6 < 6 := Nat.mod_lt _ (by decide)
  have hll : 384 * (t.val / 3 % 6) + l.val < 2048 := by
    unfold inside at hl
    split at hl <;> omega
  obtain ⟨n, hn⟩ : ∃ n : Fin 8, n.val = t.val / 18 := ⟨⟨t.val / 18, by omega⟩, rfl⟩
  obtain ⟨ll, hllv⟩ : ∃ ll : Fin 2048, ll.val = 384 * (t.val / 3 % 6) + l.val := ⟨⟨_, hll⟩, rfl⟩
  have hemb : (((cfg0.win 3).blk t).view.emb j : S8x1024x2048.Idx) = ix3 n o ll := by
    funext a
    apply Fin.ext
    match a with
    | ⟨0, _⟩ => show win0_3.index t (0 : Fin 3) * 1 + 1 * (j 0).val = n.val; omega
    | ⟨1, _⟩ => show win0_3.index t (1 : Fin 3) * 1024 + 1 * (j 1).val = o.val; omega
    | ⟨2, _⟩ => show win0_3.index t (2 : Fin 3) * 384 + 1 * (j 2).val = ll.val; omega
  rw [e, hemb]
  unfold outZ
  rw [pay3_apply, bblk_at, acc_last m c t h2 o l hl n ll hn hllv]
  rfl

/-- The written blocks tile the result array: position `p` of batch `n` is in the block of the last tile of
    position-block `p / 384`. -/
theorem cover (i : S8x1024x2048.Idx) :
    ∃ t : Fin cfg0.N, (cfg0.win 3).flush t = true ∧ i ∈ ((cfg0.win 3).blk t).view.set := by
  have hN : cfg0.N = 144 := N_0
  have hi0 : (i 0).val < 8 := (i 0).isLt
  have hi1 : (i 1).val < 1024 := (i 1).isLt
  have hi2 : (i 2).val < 2048 := (i 2).isLt
  obtain ⟨t, ht⟩ : ∃ t : Fin cfg0.N, t.val = 18 * (i 0).val + 3 * ((i 2).val / 384) + 2 :=
    ⟨⟨18 * (i 0).val + 3 * ((i 2).val / 384) + 2, by rw [hN]; omega⟩, rfl⟩
  obtain ⟨i0, i1, i2⟩ := idx_out t
  obtain ⟨x0, x1, x2⟩ := xsize_out t
  refine ⟨t, (flush0_3 t).mpr (by omega), ?_⟩
  show i ∈ ((View.whole main_v2).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + win0_3.xsize (grid0.coords t) (0 : Fin 3)
    rw [i0, x0]; omega
  | ⟨1, _⟩ =>
    show win0_3.index t (1 : Fin 3) * 1024 ≤ (i 1).val ∧ (i 1).val < win0_3.index t (1 : Fin 3) * 1024 + win0_3.xsize (grid0.coords t) (1 : Fin 3)
    rw [i1, x1]; omega
  | ⟨2, _⟩ =>
    show win0_3.index t (2 : Fin 3) * 384 ≤ (i 2).val ∧ (i 2).val < win0_3.index t (2 : Fin 3) * 384 + win0_3.xsize (grid0.coords t) (2 : Fin 3)
    rw [i2, x2]
    split <;> omega

/-- The result array after the run is the convolution of the arguments. -/
theorem final (c : Dev nD) : (dats m 0 c).arrAt 3 cfg0.N = result m c :=
  (dats m 0 c).arrAt_eq_of_cover 3 (result m c) (flushed_eq m c) cover

/-- The run, read: every weakly fair execution of the program terminates with the result array at the pointwise
    convolution of the argument arrays and the arguments unchanged. -/
theorem run : θ_run (defs (F := Ideal)) (onTc (τ := τ) (main (F := Ideal))) ⟨m, fun _ => 0, ρ⟩ fun r => ∀ c : Dev nD,
      r.2.mem ((c : Thread nD τ).loc main_v2)
          = Cert.PwConv.conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.ReferenceIdeal.Tiled

end
-- ==== Proof.lean ====
/-
  A pointwise (kernel size one) one-dimensional convolution with bias, `y[n, o, l] = (Σ_c w[o, c, 0] · x[n, c, l]) + b[o]`
  over x : [8, 1536, 2048], w : [1024, 1536, 1], b : [1024], computed two ways. The kernel takes one batch element per
  grid point and contracts all 1536 channels in one matrix product, then adds the bias. The reference walks 48
  (batch, position-block) pairs times three tiles of 512 channels: it zeroes an accumulator at the first tile, adds each
  tile's matrix product to it, and at the last tile adds the bias and writes the block back; its position-blocks are 384
  wide, so the sixth overhangs the 2048 positions and only its first 128 columns are fetched and written back.
  Over the extended reals both are the same function of the arguments: the three tiles' sums, added in order to zero,
  are the sum over all channels, by associativity alone (no finiteness is used). The idealization rewrote nothing, so
  its conjunct is trivial. Each program's frame is its run with the result dropped.
-/
import proofs.«168987_g2000604510244575_pallasbulk_476_16_alg».proof.Defs
import proofs.«168987_g2000604510244575_pallasbulk_476_16_alg».proof.Proof.Gen.Kernel
import proofs.«168987_g2000604510244575_pallasbulk_476_16_alg».proof.Proof.Gen.Kernel.Frame
import proofs.«168987_g2000604510244575_pallasbulk_476_16_alg».proof.Proof.Gen.KernelIdeal
import proofs.«168987_g2000604510244575_pallasbulk_476_16_alg».proof.Proof.Gen.KernelIdeal.Frame
import proofs.«168987_g2000604510244575_pallasbulk_476_16_alg».proof.Proof.Gen.ReferenceIdeal
import proofs.«168987_g2000604510244575_pallasbulk_476_16_alg».proof.Proof.Gen.Pre_finite_inputs
import proofs.«168987_g2000604510244575_pallasbulk_476_16_alg».proof.Proof.KernelValue
import proofs.«168987_g2000604510244575_pallasbulk_476_16_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Tiled.frame m ρ

theorem preserves : Cert.preserves_Kernel_KernelIdeal := trivial

/-- Both runs end with the result array at the pointwise convolution of their argument arrays, and the arguments agree. -/
theorem algebraic : Cert.algebraic_KernelIdeal_ReferenceIdeal := by
  intro m ρ m' ρ' _ hagree
  refine ⟨fun c => Cert.PwConv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ConvValue.run m ρ, ?_⟩
  refine (θ_run Cert.ReferenceIdeal.defs _ _).mono (fun _ h c => ⟨(h c).1.trans ?_, (h c).2⟩)
    (Cert.ReferenceIdeal.Tiled.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
